-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v27_0)) (v1 : (c : Dev Cert.KernelIdeal.nD) → Buf (Elt Ideal) ((c.tc : Thread Cert.KernelIdeal.nD Cert.KernelIdeal.τ).loc Cert.KernelIdeal.main_v27_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v27_0) = v0 c
          ∧ r.2.mem ((c.tc : Thread Cert.KernelIdeal.nD Cert.KernelIdeal.τ).loc Cert.KernelIdeal.main_v27_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v47) = v0 c
          ∧ r.2.mem ((c.tc : Thread Cert.ReferenceIdeal.nD Cert.ReferenceIdeal.τ).loc Cert.ReferenceIdeal.main_v51) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x256 : Shape := ⟨2, ![100000, 256]⟩
abbrev S2x3200000 : Shape := ⟨2, ![2, 3200000]⟩
abbrev S256x3 : Shape := ⟨2, ![256, 3]⟩
abbrev S3 : Shape := ⟨1, ![3]⟩
abbrev S3x7 : Shape := ⟨2, ![3, 7]⟩
abbrev S7 : Shape := ⟨1, ![7]⟩
abbrev S_ : Shape := ⟨0, ![]⟩

class Facts : Prop where
  bcast_S_S100000x256 : S_.BroadcastsInDim S100000x256 (![] : Fin 0 → Fin S100000x256.rank)
  reducesTo_S100000x256_S_d0_1 : S100000x256.ReducesTo [0, 1] S_
  h_S_ : 0 < S_.numel
  bcast_S_S256x3 : S_.BroadcastsInDim S256x3 (![] : Fin 0 → Fin S256x3.rank)
  reducesTo_S256x3_S_d0_1 : S256x3.ReducesTo [0, 1] S_
  bcast_S_S3 : S_.BroadcastsInDim S3 (![] : Fin 0 → Fin S3.rank)
  reducesTo_S3_S_d0 : S3.ReducesTo [0] S_
  bcast_S_S3x7 : S_.BroadcastsInDim S3x7 (![] : Fin 0 → Fin S3x7.rank)
  reducesTo_S3x7_S_d0_1 : S3x7.ReducesTo [0, 1] S_
  bcast_S_S7 : S_.BroadcastsInDim S7 (![] : Fin 0 → Fin S7.rank)
  reducesTo_S7_S_d0 : S7.ReducesTo [0] S_

variable [Facts]

def fn_part1 {F : FTy → Type} [FloatOps F] (main_arg5 : FVec F S7 .f32) (main_v13 : IVec S_ 1) (main_v16 : IVec S3x7 1) : IVec S_ 1 :=
  let main_c_5 : IVec S_ 1 := constantI S_ 1 1#1
  let main_v17 : IVec S_ 1 := (fun x v => Host.reduce IntOp.andi x v reducesTo_S3x7_S_d0_1 h_S_) main_v16 main_c_5
  let main_v18 : IVec S_ 1 := andi main_v13 main_v17
  let main_v19 : FVec F S7 .f32 := Host.absf main_arg5
  let main_cst_6 : FVec F S_ .f32 := constant S_ .f32 0x7F800000#32
  let main_v20 : FVec F S7 .f32 := broadcastInDim S7 ![] bcast_S_S7 main_cst_6
  let main_v21 : IVec S7 1 := cmpf .olt main_v19 main_v20
  let main_c_7 : IVec S_ 1 := constantI S_ 1 1#1
  let main_v22 : IVec S_ 1 := (fun x v => Host.reduce IntOp.andi x v reducesTo_S7_S_d0 h_S_) main_v21 main_c_7
  let main_v23 : IVec S_ 1 := andi main_v18 main_v22
  main_v23

def fn {F : FTy → Type} [FloatOps F] (main_arg0 : FVec F S100000x256 .f32) (main_arg1 : IVec S2x3200000 32) (main_arg2 : FVec F S256x3 .f32) (main_arg3 : FVec F S3 .f32) (main_arg4 : FVec F S3x7 .f32) (main_arg5 : FVec F S7 .f32) : IVec S_ 1 :=
  let main_v0 : FVec F S100000x256 .f32 := Host.absf main_arg0
  let main_cst : FVec F S_ .f32 := constant S_ .f32 0x7F800000#32
  let main_v1 : FVec F S100000x256 .f32 := broadcastInDim S100000x256 ![] bcast_S_S100000x256 main_cst
  let main_v2 : IVec S100000x256 1 := cmpf .olt main_v0 main_v1
  let main_c : IVec S_ 1 := constantI S_ 1 1#1
  let main_v3 : IVec S_ 1 := (fun x v => Host.reduce IntOp.andi x v reducesTo_S100000x256_S_d0_1 h_S_) main_v2 main_c
  let main_v4 : FVec F S256x3 .f32 := Host.absf main_arg2
  let main_cst_0 : FVec F S_ .f32 := constant S_ .f32 0x7F800000#32
  let main_v5 : FVec F S256x3 .f32 := broadcastInDim S256x3 ![] bcast_S_S256x3 main_cst_0
  let main_v6 : IVec S256x3 1 := cmpf .olt main_v4 main_v5
  let main_c_1 : IVec S_ 1 := constantI S_ 1 1#1
  let main_v7 : IVec S_ 1 := (fun x v => Host.reduce IntOp.andi x v reducesTo_S256x3_S_d0_1 h_S_) main_v6 main_c_1
  let main_v8 : IVec S_ 1 := andi main_v3 main_v7
  let main_v9 : FVec F S3 .f32 := Host.absf main_arg3
  let main_cst_2 : FVec F S_ .f32 := constant S_ .f32 0x7F800000#32
  let main_v10 : FVec F S3 .f32 := broadcastInDim S3 ![] bcast_S_S3 main_cst_2
  let main_v11 : IVec S3 1 := cmpf .olt main_v9 main_v10
  let main_c_3 : IVec S_ 1 := constantI S_ 1 1#1
  let main_v12 : IVec S_ 1 := (fun x v => Host.reduce IntOp.andi x v reducesTo_S3_S_d0 h_S_) main_v11 main_c_3
  let main_v13 : IVec S_ 1 := andi main_v8 main_v12
  let main_v14 : FVec F S3x7 .f32 := Host.absf main_arg4
  let main_cst_4 : FVec F S_ .f32 := constant S_ .f32 0x7F800000#32
  let main_v15 : FVec F S3x7 .f32 := broadcastInDim S3x7 ![] bcast_S_S3x7 main_cst_4
  let main_v16 : IVec S3x7 1 := cmpf .olt main_v14 main_v15
  fn_part1 (F := F) main_arg5 main_v13 main_v16
-- ==== Kernel.lean ====
abbrev S100000x256 : Shape := ⟨2, ![100000, 256]⟩
abbrev S2x3200000 : Shape := ⟨2, ![2, 3200000]⟩
abbrev S256x3 : Shape := ⟨2, ![256, 3]⟩
abbrev S3 : Shape := ⟨1, ![3]⟩
abbrev S3x7 : Shape := ⟨2, ![3, 7]⟩
abbrev S7 : Shape := ⟨1, ![7]⟩
abbrev S100000 : Shape := ⟨1, ![100000]⟩
abbrev S1x3200000 : Shape := ⟨2, ![1, 3200000]⟩
abbrev S3200000 : Shape := ⟨1, ![3200000]⟩
abbrev S3300000 : Shape := ⟨1, ![3300000]⟩
abbrev S_ : Shape := ⟨0, ![]⟩
abbrev S3300000x1 : Shape := ⟨2, ![3300000, 1]⟩
abbrev S100000x1 : Shape := ⟨2, ![100000, 1]⟩
abbrev S100000x3 : Shape := ⟨2, ![100000, 3]⟩
abbrev S5000x256 : Shape := ⟨2, ![5000, 256]⟩
abbrev S5000x1 : Shape := ⟨2, ![5000, 1]⟩
abbrev S5000x3 : Shape := ⟨2, ![5000, 3]⟩
abbrev S3300000x3 : Shape := ⟨2, ![3300000, 3]⟩
abbrev S100000x7 : Shape := ⟨2, ![100000, 7]⟩
abbrev S5000x7 : Shape := ⟨2, ![5000, 7]⟩
abbrev S1x3 : Shape := ⟨2, ![1, 3]⟩
abbrev S1x7 : Shape := ⟨2, ![1, 7]⟩

abbrev nBuf : Space → Nat
  | .hbm => 44
  | .vmem => 18
  | .smem => 0
  | _ => 0

abbrev bufTy : (tb : Table) → Fin (tcTables nBuf tb) → BufTy
  | .hbm, ⟨0, _⟩ => ⟨S100000x256, .f32⟩
  | .hbm, ⟨1, _⟩ => ⟨S2x3200000, .i32⟩
  | .hbm, ⟨2, _⟩ => ⟨S256x3, .f32⟩
  | .hbm, ⟨3, _⟩ => ⟨S3, .f32⟩
  | .hbm, ⟨4, _⟩ => ⟨S3x7, .f32⟩
  | .hbm, ⟨5, _⟩ => ⟨S7, .f32⟩
  | .hbm, ⟨6, _⟩ => ⟨S100000, .i32⟩
  | .hbm, ⟨7, _⟩ => ⟨S1x3200000, .i32⟩
  | .hbm, ⟨8, _⟩ => ⟨S3200000, .i32⟩
  | .hbm, ⟨9, _⟩ => ⟨S3300000, .i32⟩
  | .hbm, ⟨10, _⟩ => ⟨S1x3200000, .i32⟩
  | .hbm, ⟨11, _⟩ => ⟨S3200000, .i32⟩
  | .hbm, ⟨12, _⟩ => ⟨S3300000, .i32⟩
  | .hbm, ⟨13, _⟩ => ⟨S_, .f32⟩
  | .hbm, ⟨14, _⟩ => ⟨S3300000, .f32⟩
  | .hbm, ⟨15, _⟩ => ⟨S_, .f32⟩
  | .hbm, ⟨16, _⟩ => ⟨S100000, .f32⟩
  | .hbm, ⟨17, _⟩ => ⟨S3300000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S100000, .f32⟩
  | .hbm, ⟨23, _⟩ => ⟨S_, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S100000x1, .f32⟩
  | .hbm, ⟨28, _⟩ => ⟨S100000x3, .f32⟩
  | .hbm, ⟨29, _⟩ => ⟨S_, .i32⟩
  | .hbm, ⟨30, _⟩ => ⟨S3300000, .i32⟩
  | .hbm, ⟨31, _⟩ => ⟨S3300000, .i1⟩
  | .hbm, ⟨32, _⟩ => ⟨S_, .i32⟩
  | .hbm, ⟨33, _⟩ => ⟨S3300000, .i32⟩
  | .hbm, ⟨34, _⟩ => ⟨S3300000, .i32⟩
  | .hbm, ⟨35, _⟩ => ⟨S3300000, .i32⟩
  | .hbm, ⟨36, _⟩ => ⟨S3300000x1, .i32⟩
  | .hbm, ⟨37, _⟩ => ⟨S3300000x3, .f32⟩
  | .hbm, ⟨38, _⟩ => ⟨S_, .f32⟩
  | .hbm, ⟨39, _⟩ => ⟨S100000x3, .f32⟩
  | .hbm, ⟨40, _⟩ => ⟨S3300000x1, .i32⟩
  | .hbm, ⟨41, _⟩ => ⟨S100000x3, .f32⟩
  | .hbm, ⟨42, _⟩ => ⟨S100000x3, .f32⟩
  | .hbm, ⟨43, _⟩ => ⟨S100000x7, .f32⟩
  | .local _ .vmem, ⟨0, _⟩ => ⟨S5000x256, .f32⟩
  | .local _ .vmem, ⟨1, _⟩ => ⟨S5000x256, .f32⟩
  | .local _ .vmem, ⟨2, _⟩ => ⟨S256x3, .f32⟩
  | .local _ .vmem, ⟨3, _⟩ => ⟨S5000x1, .f32⟩
  | .local _ .vmem, ⟨4, _⟩ => ⟨S5000x1, .f32⟩
  | .local _ .vmem, ⟨5, _⟩ => ⟨S5000x3, .f32⟩
  | .local _ .vmem, ⟨6, _⟩ => ⟨S5000x3, .f32⟩
  | .local _ .vmem, ⟨7, _⟩ => ⟨S5000x3, .f32⟩
  | .local _ .vmem, ⟨8, _⟩ => ⟨S5000x3, .f32⟩
  | .local _ .vmem, ⟨9, _⟩ => ⟨S5000x1, .f32⟩
  | .local _ .vmem, ⟨10, _⟩ => ⟨S5000x1, .f32⟩
  | .local _ .vmem, ⟨11, _⟩ => ⟨S3, .f32⟩
  | .local _ .vmem, ⟨12, _⟩ => ⟨S3x7, .f32⟩
  | .local _ .vmem, ⟨13, _⟩ => ⟨S7, .f32⟩
  | .local _ .vmem, ⟨14, _⟩ => ⟨S5000x3, .f32⟩
  | .local _ .vmem, ⟨15, _⟩ => ⟨S5000x3, .f32⟩
  | .local _ .vmem, ⟨16, _⟩ => ⟨S5000x7, .f32⟩
  | .local _ .vmem, ⟨17, _⟩ => ⟨S5000x7, .f32⟩
  | _, _ => ⟨S100000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_c : Ref sig .tc := ⟨.hbm, 29, rfl⟩
abbrev main_v17 : Ref sig .tc := ⟨.hbm, 30, rfl⟩
abbrev main_v18 : Ref sig .tc := ⟨.hbm, 31, rfl⟩
abbrev main_c_3 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_cst_4 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27_0 : Ref sig .tc := ⟨.hbm, 42, rfl⟩
abbrev main_v27_1 : Ref sig .tc := ⟨.hbm, 43, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg5_0 : Ref sig .tc := ⟨.vmem, 14, rfl⟩
abbrev cc1_stg5_1 : Ref sig .tc := ⟨.vmem, 15, rfl⟩
abbrev cc1_stg6_0 : Ref sig .tc := ⟨.vmem, 16, rfl⟩
abbrev cc1_stg6_1 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem3_0 : DmaSem sig := 12
abbrev cc1_sem4_0 : DmaSem sig := 13
abbrev cc1_sem5_0 : DmaSem sig := 14
abbrev cc1_sem5_1 : DmaSem sig := 15
abbrev cc1_sem6_0 : DmaSem sig := 16
abbrev cc1_sem6_1 : DmaSem sig := 17

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x3 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S5000x3 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x3 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S3 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S3x7 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S7 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x3 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S5000x7 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

class Facts₀ : Prop where
  slices_S2x3200000_S1x3200000_0_0 : S2x3200000.Slices ![0, 0] S1x3200000
  shapeCasts_S1x3200000_S3200000 : S1x3200000.ShapeCasts S3200000
  concatenates_S3200000_S100000_S3300000_d0 : Shape.Concatenates [S3200000, S100000] S3300000 0
  slices_S2x3200000_S1x3200000_1_0 : S2x3200000.Slices ![1, 0] S1x3200000
  bcast_S_S3300000 : S_.BroadcastsInDim S3300000 (![] : Fin 0 → Fin S3300000.rank)
  bcast_S_S100000 : S_.BroadcastsInDim S100000 (![] : Fin 0 → Fin S100000.rank)
  bcast_S3300000_S3300000x1_0 : S3300000.BroadcastsInDim S3300000x1 (![0] : Fin 1 → Fin S3300000x1.rank)
  shapeCasts_S100000_S100000x1 : S100000.ShapeCasts S100000x1
  inb_S5000x256_S5000x256_0_0 : ∀ a, (![0, 0] : Fin 2 → Nat) a + S5000x256.size a ≤ S5000x256.size a
  h_S5000x256 : 0 < S5000x256.numel
  bitsLt_bf16_f32 : FTy.bits .bf16 < FTy.bits .f32
  inb_S256x3_S256x3_0_0 : ∀ a, (![0, 0] : Fin 2 → Nat) a + S256x3.size a ≤ S256x3.size a
  h_S256x3 : 0 < S256x3.numel
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x3 : S5000x1.Broadcasts S5000x3
  inb_S5000x3_S5000x3_0_0 : ∀ a, (![0, 0] : Fin 2 → Nat) a + S5000x3.size a ≤ S5000x3.size a
  h_S5000x3 : 0 < S5000x3.numel
  bcast_S_S100000x3 : S_.BroadcastsInDim S100000x3 (![] : Fin 0 → Fin S100000x3.rank)
  shapeCasts_S5000x3_S5000x3 : S5000x3.ShapeCasts S5000x3
  inb_S3_S3_0 : ∀ a, (![0] : Fin 1 → Nat) a + S3.size a ≤ S3.size a
  h_S3 : 0 < S3.numel
  shapeCasts_S3_S1x3 : S3.ShapeCasts S1x3
  broadcasts_S1x3_S5000x3 : S1x3.Broadcasts S5000x3
  inb_S3x7_S3x7_0_0 : ∀ a, (![0, 0] : Fin 2 → Nat) a + S3x7.size a ≤ S3x7.size a
  h_S3x7 : 0 < S3x7.numel
  inb_S7_S7_0 : ∀ a, (![0] : Fin 1 → Nat) a + S7.size a ≤ S7.size a
  h_S7 : 0 < S7.numel
  shapeCasts_S7_S1x7 : S7.ShapeCasts S1x7
  broadcasts_S1x7_S5000x7 : S1x7.Broadcasts S5000x7
  inb_S5000x7_S5000x7_0_0 : ∀ a, (![0, 0] : Fin 2 → Nat) a + S5000x7.size a ≤ S5000x7.size a
  h_S5000x7 : 0 < S5000x7.numel
  scatter_S100000_S3300000x1_S3300000_n_0_0_1_wf : ScatterDims.WF S100000 S3300000x1 S3300000 [] [0] [0] 1
  dot_S5000x256_S256x3_S5000x3_1_0_0_1_n_n_wf : DotDims.WF S5000x256 S256x3 S5000x3 [1] [0] [0] [1] [] []
  gather_S100000x3_S3300000x1_S3300000x3_1_0_n_n_0_1_13_wf : GatherDims.WF S100000x3 S3300000x1 S3300000x3 [1] [0] [] [0] [] 1 ![1, 3]
  scatter_S100000x3_S3300000x1_S3300000x3_1_0_0_1_wf : ScatterDims.WF S100000x3 S3300000x1 S3300000x3 [1] [0] [0] 1
  dot_S5000x3_S3x7_S5000x7_1_0_0_1_n_n_wf : DotDims.WF S5000x3 S3x7 S5000x7 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x256.size a ≤ S100000x256.size a
  hwx0_0 : ∀ i : grid0.Coords, EltTy.bits .f32 = 32 ∨ (Rect.block (s := S100000x256) S5000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x3.size a ≤ S256x3.size a
  hwx0_1 : ∀ i : grid0.Coords, EltTy.bits .f32 = 32 ∨ (Rect.block (s := S256x3) S256x3.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x1.size a ≤ S100000x1.size a
  hwx0_2 : ∀ i : grid0.Coords, EltTy.bits .f32 = 32 ∨ (Rect.block (s := S100000x1) S5000x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x3.size a ≤ S100000x3.size a
  hwx0_3 : ∀ i : grid0.Coords, EltTy.bits .f32 = 32 ∨ (Rect.block (s := S100000x3) S5000x3.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x3.size a ≤ S100000x3.size a
  hwx1_0 : ∀ i : grid1.Coords, EltTy.bits .f32 = 32 ∨ (Rect.block (s := S100000x3) S5000x3.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x1.size a ≤ S100000x1.size a
  hwx1_1 : ∀ i : grid1.Coords, EltTy.bits .f32 = 32 ∨ (Rect.block (s := S100000x1) S5000x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S3.size a ≤ S3.size a
  hwx1_2 : ∀ i : grid1.Coords, EltTy.bits .f32 = 32 ∨ (Rect.block (s := S3) S3.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S3x7.size a ≤ S3x7.size a
  hwx1_3 : ∀ i : grid1.Coords, EltTy.bits .f32 = 32 ∨ (Rect.block (s := S3x7) S3x7.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S7.size a ≤ S7.size a
  hwx1_4 : ∀ i : grid1.Coords, EltTy.bits .f32 = 32 ∨ (Rect.block (s := S7) S7.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x3.size a ≤ S100000x3.size a
  hwx1_5 : ∀ i : grid1.Coords, EltTy.bits .f32 = 32 ∨ (Rect.block (s := S100000x3) S5000x3.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S5000x7.size a ≤ S100000x7.size a
  hwx1_6 : ∀ i : grid1.Coords, EltTy.bits .f32 = 32 ∨ (Rect.block (s := S100000x7) S5000x7.size (cc1_transform_6 i) (hinb1_6 i)).WholeWords (EltTy.packing .f32)

variable [Facts₀]

def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def dot_S5000x256_S256x3_S5000x3_1_0_0_1_n_n : DotDims S5000x256 S256x3 S5000x3 where
  lhsContracting := [1]
  rhsContracting := [0]
  lhsNonContracting := [0]
  rhsNonContracting := [1]
  lhsBatch := []
  rhsBatch := []
  wf := dot_S5000x256_S256x3_S5000x3_1_0_0_1_n_n_wf
def gather_S100000x3_S3300000x1_S3300000x3_1_0_n_n_0_1_13 : GatherDims S100000x3 S3300000x1 S3300000x3 where
  offsetDims := [1]
  collapsedSliceDims := [0]
  operandBatchingDims := []
  startIndicesBatchingDims := []
  startIndexMap := [0]
  indexVectorDim := 1
  sliceSizes := ![1, 3]
  wf := gather_S100000x3_S3300000x1_S3300000x3_1_0_n_n_0_1_13_wf
def scatter_S100000x3_S3300000x1_S3300000x3_1_0_0_1 : ScatterDims S100000x3 S3300000x1 S3300000x3 where
  updateWindowDims := [1]
  insertedWindowDims := [0]
  scatterDimsToOperandDims := [0]
  indexVectorDim := 1
  wf := scatter_S100000x3_S3300000x1_S3300000x3_1_0_0_1_wf
def dot_S5000x3_S3x7_S5000x7_1_0_0_1_n_n : DotDims S5000x3 S3x7 S5000x7 where
  lhsContracting := [1]
  rhsContracting := [0]
  lhsNonContracting := [0]
  rhsNonContracting := [1]
  lhsBatch := []
  rhsBatch := []
  wf := dot_S5000x3_S3x7_S5000x7_1_0_0_1_n_n_wf

abbrev win0_0 : Pipeline.Window sig grid0 :=
  Pipeline.Window.ofSpec (Memref.whole main_arg0) S5000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S256x3.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v15) S5000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v16) S5000x3.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v26) S5000x3.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v15) S5000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg3) S3.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg4) S3x7.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg5) S7.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v27_0) S5000x3.size cc1_transform_5 reads1_5 true false 2 stage1_5 sem1_5
    hrank1 hreads1_5 hinb1_5 nbuf1_5 (Memref.isWhole_whole _) hwx1_5 hstage1_5

abbrev win1_6 : Pipeline.Window sig grid1 :=
  Pipeline.Window.ofSpec (Memref.whole main_v27_1) S5000x7.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

class Facts : Prop extends Facts₀ where

variable [Facts]
-- ==== ReferenceIdeal.lean ====
abbrev S100000x256 : Shape := ⟨2, ![100000, 256]⟩
abbrev S2x3200000 : Shape := ⟨2, ![2, 3200000]⟩
abbrev S256x3 : Shape := ⟨2, ![256, 3]⟩
abbrev S3 : Shape := ⟨1, ![3]⟩
abbrev S3x7 : Shape := ⟨2, ![3, 7]⟩
abbrev S7 : Shape := ⟨1, ![7]⟩
abbrev S100000 : Shape := ⟨1, ![100000]⟩
abbrev S1x3200000 : Shape := ⟨2, ![1, 3200000]⟩
abbrev S3200000 : Shape := ⟨1, ![3200000]⟩
abbrev S3300000 : Shape := ⟨1, ![3300000]⟩
abbrev S_ : Shape := ⟨0, ![]⟩
abbrev S3300000x1 : Shape := ⟨2, ![3300000, 1]⟩
abbrev S100000x3 : Shape := ⟨2, ![100000, 3]⟩
abbrev S3300000x3 : Shape := ⟨2, ![3300000, 3]⟩
abbrev S1x3 : Shape := ⟨2, ![1, 3]⟩
abbrev S100000x7 : Shape := ⟨2, ![100000, 7]⟩
abbrev S1x7 : Shape := ⟨2, ![1, 7]⟩

abbrev nBuf : Space → Nat
  | .hbm => 73
  | .vmem => 0
  | .smem => 0
  | _ => 0

abbrev bufTy : (tb : Table) → Fin (tcTables nBuf tb) → BufTy
  | .hbm, ⟨0, _⟩ => ⟨S100000x256, .f32⟩
  | .hbm, ⟨1, _⟩ => ⟨S2x3200000, .i32⟩
  | .hbm, ⟨2, _⟩ => ⟨S256x3, .f32⟩
  | .hbm, ⟨3, _⟩ => ⟨S3, .f32⟩
  | .hbm, ⟨4, _⟩ => ⟨S3x7, .f32⟩
  | .hbm, ⟨5, _⟩ => ⟨S7, .f32⟩
  | .hbm, ⟨6, _⟩ => ⟨S100000, .i32⟩
  | .hbm, ⟨7, _⟩ => ⟨S1x3200000, .i32⟩
  | .hbm, ⟨8, _⟩ => ⟨S3200000, .i32⟩
  | .hbm, ⟨9, _⟩ => ⟨S3300000, .i32⟩
  | .hbm, ⟨10, _⟩ => ⟨S1x3200000, .i32⟩
  | .hbm, ⟨11, _⟩ => ⟨S3200000, .i32⟩
  | .hbm, ⟨12, _⟩ => ⟨S3300000, .i32⟩
  | .hbm, ⟨13, _⟩ => ⟨S_, .f32⟩
  | .hbm, ⟨14, _⟩ => ⟨S3300000, .f32⟩
  | .hbm, ⟨15, _⟩ => ⟨S_, .f32⟩
  | .hbm, ⟨16, _⟩ => ⟨S100000, .f32⟩
  | .hbm, ⟨17, _⟩ => ⟨S3300000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S100000, .f32⟩
  | .hbm, ⟨23, _⟩ => ⟨S_, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S_, .i32⟩
  | .hbm, ⟨28, _⟩ => ⟨S3300000, .i32⟩
  | .hbm, ⟨29, _⟩ => ⟨S3300000, .i1⟩
  | .hbm, ⟨30, _⟩ => ⟨S_, .i32⟩
  | .hbm, ⟨31, _⟩ => ⟨S3300000, .i32⟩
  | .hbm, ⟨32, _⟩ => ⟨S3300000, .i32⟩
  | .hbm, ⟨33, _⟩ => ⟨S3300000, .i32⟩
  | .hbm, ⟨34, _⟩ => ⟨S3300000x1, .i32⟩
  | .hbm, ⟨35, _⟩ => ⟨S3300000, .f32⟩
  | .hbm, ⟨36, _⟩ => ⟨S_, .i32⟩
  | .hbm, ⟨37, _⟩ => ⟨S3300000, .i32⟩
  | .hbm, ⟨38, _⟩ => ⟨S3300000, .i1⟩
  | .hbm, ⟨39, _⟩ => ⟨S_, .i32⟩
  | .hbm, ⟨40, _⟩ => ⟨S3300000, .i32⟩
  | .hbm, ⟨41, _⟩ => ⟨S3300000, .i32⟩
  | .hbm, ⟨42, _⟩ => ⟨S3300000, .i32⟩
  | .hbm, ⟨43, _⟩ => ⟨S3300000x1, .i32⟩
  | .hbm, ⟨44, _⟩ => ⟨S3300000, .f32⟩
  | .hbm, ⟨45, _⟩ => ⟨S3300000, .f32⟩
  | .hbm, ⟨46, _⟩ => ⟨S100000x3, .f32⟩
  | .hbm, ⟨47, _⟩ => ⟨S_, .i32⟩
  | .hbm, ⟨48, _⟩ => ⟨S3300000, .i32⟩
  | .hbm, ⟨49, _⟩ => ⟨S3300000, .i1⟩
  | .hbm, ⟨50, _⟩ => ⟨S_, .i32⟩
  | .hbm, ⟨51, _⟩ => ⟨S3300000, .i32⟩
  | .hbm, ⟨52, _⟩ => ⟨S3300000, .i32⟩
  | .hbm, ⟨53, _⟩ => ⟨S3300000, .i32⟩
  | .hbm, ⟨54, _⟩ => ⟨S3300000x1, .i32⟩
  | .hbm, ⟨55, _⟩ => ⟨S3300000x3, .f32⟩
  | .hbm, ⟨56, _⟩ => ⟨S3300000x1, .f32⟩
  | .hbm, ⟨57, _⟩ => ⟨S3300000x3, .f32⟩
  | .hbm, ⟨58, _⟩ => ⟨S3300000x3, .f32⟩
  | .hbm, ⟨59, _⟩ => ⟨S_, .f32⟩
  | .hbm, ⟨60, _⟩ => ⟨S100000x3, .f32⟩
  | .hbm, ⟨61, _⟩ => ⟨S3300000x1, .i32⟩
  | .hbm, ⟨62, _⟩ => ⟨S100000x3, .f32⟩
  | .hbm, ⟨63, _⟩ => ⟨S1x3, .f32⟩
  | .hbm, ⟨64, _⟩ => ⟨S100000x3, .f32⟩
  | .hbm, ⟨65, _⟩ => ⟨S100000x3, .f32⟩
  | .hbm, ⟨66, _⟩ => ⟨S_, .f32⟩
  | .hbm, ⟨67, _⟩ => ⟨S100000x3, .f32⟩
  | .hbm, ⟨68, _⟩ => ⟨S100000x3, .f32⟩
  | .hbm, ⟨69, _⟩ => ⟨S100000x7, .f32⟩
  | .hbm, ⟨70, _⟩ => ⟨S1x7, .f32⟩
  | .hbm, ⟨71, _⟩ => ⟨S100000x7, .f32⟩
  | .hbm, ⟨72, _⟩ => ⟨S100000x7, .f32⟩
  | _, _ => ⟨S100000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_call1_cst : Ref sig .tc := ⟨.hbm, 66, rfl⟩
abbrev main_call1_v0 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩

abbrev nD : Nat := 1
abbrev τ : Topo := Topo.v7x

variable {F : FTy → Type} [FloatOps F]

class Facts₀ : Prop where
  slices_S2x3200000_S1x3200000_0_0 : S2x3200000.Slices ![0, 0] S1x3200000
  shapeCasts_S1x3200000_S3200000 : S1x3200000.ShapeCasts S3200000
  concatenates_S3200000_S100000_S3300000_d0 : Shape.Concatenates [S3200000, S100000] S3300000 0
  slices_S2x3200000_S1x3200000_1_0 : S2x3200000.Slices ![1, 0] S1x3200000
  bcast_S_S3300000 : S_.BroadcastsInDim S3300000 (![] : Fin 0 → Fin S3300000.rank)
  bcast_S_S100000 : S_.BroadcastsInDim S100000 (![] : Fin 0 → Fin S100000.rank)
  bcast_S3300000_S3300000x1_0 : S3300000.BroadcastsInDim S3300000x1 (![0] : Fin 1 → Fin S3300000x1.rank)
  bcast_S3300000x1_S3300000x3_0_1 : S3300000x1.BroadcastsInDim S3300000x3 (![0, 1] : Fin 2 → Fin S3300000x3.rank)
  bcast_S_S100000x3 : S_.BroadcastsInDim S100000x3 (![] : Fin 0 → Fin S100000x3.rank)
  bcast_S3_S1x3_1 : S3.BroadcastsInDim S1x3 (![1] : Fin 1 → Fin S1x3.rank)
  bcast_S1x3_S100000x3_0_1 : S1x3.BroadcastsInDim S100000x3 (![0, 1] : Fin 2 → Fin S100000x3.rank)
  bcast_S7_S1x7_1 : S7.BroadcastsInDim S1x7 (![1] : Fin 1 → Fin S1x7.rank)
  bcast_S1x7_S100000x7_0_1 : S1x7.BroadcastsInDim S100000x7 (![0, 1] : Fin 2 → Fin S100000x7.rank)
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  dot_S100000x256_S256x3_S100000x3_1_0_0_1_n_n_wf : DotDims.WF S100000x256 S256x3 S100000x3 [1] [0] [0] [1] [] []
  gather_S100000x3_S3300000x1_S3300000x3_1_0_n_n_0_1_13_wf : GatherDims.WF S100000x3 S3300000x1 S3300000x3 [1] [0] [] [0] [] 1 ![1, 3]
  scatter_S100000x3_S3300000x1_S3300000x3_1_0_0_1_wf : ScatterDims.WF S100000x3 S3300000x1 S3300000x3 [1] [0] [0] 1
  dot_S100000x3_S3x7_S100000x7_1_0_0_1_n_n_wf : DotDims.WF S100000x3 S3x7 S100000x7 [1] [0] [0] [1] [] []

variable [Facts₀]

def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def dot_S100000x256_S256x3_S100000x3_1_0_0_1_n_n : DotDims S100000x256 S256x3 S100000x3 where
  lhsContracting := [1]
  rhsContracting := [0]
  lhsNonContracting := [0]
  rhsNonContracting := [1]
  lhsBatch := []
  rhsBatch := []
  wf := dot_S100000x256_S256x3_S100000x3_1_0_0_1_n_n_wf
def gather_S100000x3_S3300000x1_S3300000x3_1_0_n_n_0_1_13 : GatherDims S100000x3 S3300000x1 S3300000x3 where
  offsetDims := [1]
  collapsedSliceDims := [0]
  operandBatchingDims := []
  startIndicesBatchingDims := []
  startIndexMap := [0]
  indexVectorDim := 1
  sliceSizes := ![1, 3]
  wf := gather_S100000x3_S3300000x1_S3300000x3_1_0_n_n_0_1_13_wf
def scatter_S100000x3_S3300000x1_S3300000x3_1_0_0_1 : ScatterDims S100000x3 S3300000x1 S3300000x3 where
  updateWindowDims := [1]
  insertedWindowDims := [0]
  scatterDimsToOperandDims := [0]
  indexVectorDim := 1
  wf := scatter_S100000x3_S3300000x1_S3300000x3_1_0_0_1_wf
def dot_S100000x3_S3x7_S100000x7_1_0_0_1_n_n : DotDims S100000x3 S3x7 S100000x7 where
  lhsContracting := [1]
  rhsContracting := [0]
  lhsNonContracting := [0]
  rhsNonContracting := [1]
  lhsBatch := []
  rhsBatch := []
  wf := dot_S100000x3_S3x7_S100000x7_1_0_0_1_n_n_wf

class Facts : Prop extends Facts₀ where

variable [Facts]
-- ==== Proof.KernelRun.lean ====
/-
  The idealized kernel's run with its two result arrays named.

  The program is two pipelined regions among stretches of host operations. Its run is a chain of segments, and after
  the last segment every unscoped buffer holds the last boundary's contents: the fold of the host stretches and the
  regions' write-backs from the launch memory. So every weakly fair execution terminates with the two result buffers
  at that fold read at their references (out0, out1), and the argument arrays as launched. What the fold IS at the
  two results, as a function of the arguments, is read in the modules that import this one.
-/
import proofs.«133385_j39960375722198_2_alg».proof.Proof.Gen.KernelIdeal.Frame

set_option maxRecDepth 16384

noncomputable section

namespace Cert.KernelIdeal.Named

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The first result array after the run: the last boundary's contents at its reference. -/
def out0 (c : Dev nD) : Buf (Elt F) ((c.tc : Thread nD τ).loc main_v27_0) := W6 m ρ c (Proc.devRef .tc main_v27_0)
/-- The second result array after the run. -/
def out1 (c : Dev nD) : Buf (Elt F) ((c.tc : Thread nD τ).loc main_v27_1) := W6 m ρ c (Proc.devRef .tc main_v27_1)

set_option backward.isDefEq.respectTransparency.types false in
/-- Every weakly fair execution terminates, nothing faulting, with the result arrays at out0 and out1 and the
    argument arrays as launched. -/
theorem run : θ_run defs (onTc (τ := τ) (main (F := F))) ⟨m, fun _ => 0, ρ⟩ (fun r => ∀ c : Dev nD,
      r.2.mem ((c.tc : Thread nD τ).loc main_v27_0) = out0 m ρ c
      ∧ r.2.mem ((c.tc : Thread nD τ).loc main_v27_1) = out1 m ρ c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c =>
      ⟨h c _ (mem_uc main_v27_0 (by decide)),
       h c _ (mem_uc main_v27_1 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c),
       (h c _ (mem_uc main_arg5 (by decide))).trans (W6_main_arg5 m ρ c)⟩)

end Cert.KernelIdeal.Named

end
-- ==== Proof.LibPlainDot.lean ====
/-
  A plain matrix product [M, K] × [K, N] read at an index over the extended reals.

  With the contraction on the left operand's axis 1 and the right operand's axis 0 and no batch axis, the product's
  entry (p, q) is the sum over k of lhs (p, k) · rhs (k, q): for a matrix unit's product into a zero accumulator
  (matmul_zero_apply) and for the host's dot_general (dotGeneral_apply) alike, whatever precision or schedule key
  they carry. Both follow from re-indexing the sum over the one-axis contraction shape by its coordinate (contr_sum).
-/
import Idealize.ShloMosaic.PureOps.Ideal.Laws
import Idealize.ShloMosaic.Lib.ValueIdx

noncomputable section

open scoped BigOperators

namespace Cert.PlainDot

open Idealize.ShloMosaic Idealize.ShloMosaic.ValueIdx

variable {M K N : Nat}

/-- The dimension numbers of the plain product. -/
abbrev plainDims (M K N : Nat) (wf : DotDims.WF ⟨2, ![M, K]⟩ ⟨2, ![K, N]⟩ ⟨2, ![M, N]⟩ [1] [0] [0] [1] [] []) :
    DotDims ⟨2, ![M, K]⟩ ⟨2, ![K, N]⟩ ⟨2, ![M, N]⟩ where
  lhsContracting := [1]
  rhsContracting := [0]
  lhsNonContracting := [0]
  rhsNonContracting := [1]
  lhsBatch := []
  rhsBatch := []
  wf := wf

variable (wf : DotDims.WF ⟨2, ![M, K]⟩ ⟨2, ![K, N]⟩ ⟨2, ![M, N]⟩ [1] [0] [0] [1] [] [])

/-- The left operand's row coordinate is the result's row, whatever the contraction index. -/
theorem lhs_row (j : (⟨2, ![M, N]⟩ : Shape).Idx) (r : (plainDims M K N wf).contr.Idx) :
    ((plainDims M K N wf).lhsIdx j r 0).val = (j 0).val := by
  unfold DotDims.lhsIdx
  rw [dif_neg (show ¬ (0 : Fin 2) ∈ (plainDims M K N wf).lhsBatch from List.not_mem_nil),
    dif_pos (show (0 : Fin 2) ∈ (plainDims M K N wf).lhsNonContracting from List.mem_singleton.mpr rfl)]
  rfl

/-- The right operand's column coordinate is the result's column, whatever the contraction index. -/
theorem rhs_col (j : (⟨2, ![M, N]⟩ : Shape).Idx) (r : (plainDims M K N wf).contr.Idx) :
    ((plainDims M K N wf).rhsIdx j r 1).val = (j 1).val := by
  unfold DotDims.rhsIdx
  rw [dif_neg (show ¬ (1 : Fin 2) ∈ (plainDims M K N wf).rhsBatch from List.not_mem_nil),
    dif_pos (show (1 : Fin 2) ∈ (plainDims M K N wf).rhsNonContracting from List.mem_singleton.mpr rfl)]
  rfl

/-- The sum over the contraction shape is the sum over k of lhs (p, k) · rhs (k, q). -/
theorem contr_sum (lhs : (⟨2, ![M, K]⟩ : Shape).Idx → EReal) (rhs : (⟨2, ![K, N]⟩ : Shape).Idx → EReal) (p : Fin M) (q : Fin N) :
    ∑ k : (plainDims M K N wf).contr.Idx, lhs ((plainDims M K N wf).lhsIdx (ix2 p q) k) * rhs ((plainDims M K N wf).rhsIdx (ix2 p q) k)
      = ∑ k : Fin K, lhs (ix2 p k) * rhs (ix2 k q) := by
  rw [← Equiv.sum_comp (contrEquiv1 (plainDims M K N wf) K rfl rfl).symm]
  refine Finset.sum_congr rfl fun k _ => ?_
  have hk := contrEquiv1_symm_val (plainDims M K N wf) K rfl rfl k
  have el : (plainDims M K N wf).lhsIdx (ix2 p q) ((contrEquiv1 (plainDims M K N wf) K rfl rfl).symm k) = ix2 p k :=
    funext fun a => Fin.ext (by
      match a with
      | ⟨0, _⟩ => exact lhs_row wf _ _
      | ⟨1, _⟩ => exact ((plainDims M K N wf).lhsIdx_val_of_single rfl _ _).trans hk)
  have er : (plainDims M K N wf).rhsIdx (ix2 p q) ((contrEquiv1 (plainDims M K N wf) K rfl rfl).symm k) = ix2 k q :=
    funext fun a => Fin.ext (by
      match a with
      | ⟨0, _⟩ => exact ((plainDims M K N wf).rhsIdx_val_of_single rfl _ _).trans hk
      | ⟨1, _⟩ => exact rhs_col wf _ _)
  rw [el, er]

/-- A MATRIX UNIT'S PRODUCT INTO A ZERO ACCUMULATOR, read at (p, q), for ANY dimension numbers of the plain form. -/
theorem matmul_zero_apply {φ₁ φ₂ : FTy} (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = [])
    (prec : Option ContractPrecision) (lhs : FVec Ideal ⟨2, ![M, K]⟩ φ₁) (rhs : FVec Ideal ⟨2, ![K, N]⟩ φ₂) (p : Fin M) (q : Fin N) :
    FloatOps.matmul d prec lhs rhs (constant (F := Ideal) ⟨2, ![M, N]⟩ .f32 0x00000000#32) (ix2 p q)
      = ∑ k : Fin K, lhs (ix2 p k) * rhs (ix2 k q) := by
  obtain ⟨lc, rc, ln, rn, lb, rb, wf⟩ := d
  dsimp only at h1 h2 h3 h4 h5 h6
  subst h1 h2 h3 h4 h5 h6
  rw [Ideal.matmul_constant_zero_apply]
  exact contr_sum wf lhs rhs p q

/-- THE HOST'S dot_general, read at (p, q), for ANY dimension numbers of the plain form. -/
theorem dotGeneral_apply {φ₁ φ₂ : FTy} (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = [])
    (prec : Option ContractPrecision) (sched : HostSchedule) (lhs : FVec Ideal ⟨2, ![M, K]⟩ φ₁) (rhs : FVec Ideal ⟨2, ![K, N]⟩ φ₂)
    (p : Fin M) (q : Fin N) :
    FloatOps.dotGeneral d prec sched lhs rhs (ix2 p q) = ∑ k : Fin K, lhs (ix2 p k) * rhs (ix2 k q) := by
  obtain ⟨lc, rc, ln, rn, lb, rb, wf⟩ := d
  dsimp only at h1 h2 h3 h4 h5 h6
  subst h1 h2 h3 h4 h5 h6
  rw [Ideal.dotGeneral_apply]
  exact contr_sum wf lhs rhs p q

end Cert.PlainDot

end
-- ==== Proof.Region0.lean ====
/-
  The first region's result array as one function of the arrays the region finds.

  The region's grid has 20 points. At point t its body reads rows 5000·t … 5000·t + 4999 of the feature matrix
  X [100000, 256] and of the node-factor column D [100000, 1], all of the weight matrix W [256, 3], and writes rows
  5000·t … 5000·t + 4999 of the result [100000, 3]: the matrix product of the two blocks (rounding to bf16 on the way
  into the matrix unit is the identity on the extended reals) times the factor column broadcast along the three
  columns. So block t of the result is block t of ONE whole-array function, scaledRows X W D, whose entry (n, q) is
  (Σ_k X (n, k) · W (k, q)) · D (n, 0) (flushed_eq); every row lies in the block of point n / 5000 (cover); hence
  the array the region leaves is scaledRows of the arrays it found (final).
-/
import proofs.«133385_j39960375722198_2_alg».proof.Proof.Gen.KernelIdeal.Frame
import proofs.«133385_j39960375722198_2_alg».proof.Proof.LibPlainDot
import Idealize.ShloMosaic.Lib.Pipeline.Value
import Idealize.ShloMosaic.Lib.ValueLayout

set_option maxRecDepth 16384

noncomputable section

open scoped BigOperators

namespace Cert.KernelIdeal.Region0

open Cert.KernelIdeal Cert.KernelIdeal.Gen
open Idealize.ShloMosaic Idealize.ShloMosaic.TcCoe Idealize.ShloMosaic.ValueIdx Idealize.SL.Sem
open Idealize.ShloMosaic.Pipeline (Dat)

/-- The whole result: entry (n, q) is row n of X times column q of W, scaled by D's entry for row n. -/
def scaledRows (X : S100000x256.Idx → EReal) (Wt : S256x3.Idx → EReal) (D : S100000x1.Idx → EReal) : S100000x3.Idx → EReal :=
  fun i => (∑ k : Fin 256, X (ix2 ⟨(i 0).val, idx2_lt0 i⟩ k) * Wt (ix2 k ⟨(i 1).val, idx2_lt1 i⟩)) * D (ix2 ⟨(i 0).val, idx2_lt0 i⟩ 0)

theorem scaledRows_apply (X : S100000x256.Idx → EReal) (Wt : S256x3.Idx → EReal) (D : S100000x1.Idx → EReal) (n : Fin 100000) (q : Fin 3) :
    scaledRows X Wt D (ix2 n q) = (∑ k : Fin 256, X (ix2 n k) * Wt (ix2 k q)) * D (ix2 n 0) := rfl

theorem hz : (![0, 0] : Fin 2 → Nat) = fun _ => 0 := funext fun a => by fin_cases a <;> rfl

/-- The body's stored value at (p, q): the product of the loaded blocks at (p, q) times the loaded column at (p, 0). -/
theorem pay_apply (x0 : Vec Ideal S5000x256 .f32) (x1 : Vec Ideal S256x3 .f32) (x2 : Vec Ideal S5000x1 .f32) (p : Fin 5000) (q : Fin 3) :
    k0_pay1 x0 x1 x2 (ix2 p q) = (∑ k : Fin 256, x0 (ix2 p k) * x1 (ix2 k q)) * x2 (ix2 p 0) := by
  have h1 : matmul dot_S5000x256_S256x3_S5000x3_1_0_0_1_n_n none (truncf .bf16 x0 bitsLt_bf16_f32) (truncf .bf16 x1 bitsLt_bf16_f32)
      (constant (F := Ideal) S5000x3 .f32 0x00000000#32) (ix2 p q) = ∑ k : Fin 256, x0 (ix2 p k) * x1 (ix2 k q) :=
    Cert.PlainDot.matmul_zero_apply dot_S5000x256_S256x3_S5000x3_1_0_0_1_n_n rfl rfl rfl rfl rfl rfl none _ _ p q
  have h2 : broadcastTo S5000x3 (shapeCast S5000x1 x2 shapeCasts_S5000x1_S5000x1) broadcasts_S5000x1_S5000x3 (ix2 p q) = x2 (ix2 p 0) := by
    rw [shapeCast_self]
    exact broadcastTo_apply x2 broadcasts_S5000x1_S5000x3 (ix2 p q) (ix2 p 0) (fun a => match a with
      | ⟨0, _⟩ => by show p.val = if (5000 : Nat) = 1 then 0 else p.val; rw [if_neg (by decide)]
      | ⟨1, _⟩ => by show (0 : Nat) = if (1 : Nat) = 1 then 0 else q.val; rw [if_pos rfl])
  unfold k0_pay1
  show (matmul dot_S5000x256_S256x3_S5000x3_1_0_0_1_n_n none (truncf .bf16 x0 bitsLt_bf16_f32) (truncf .bf16 x1 bitsLt_bf16_f32)
      (constant (F := Ideal) S5000x3 .f32 0x00000000#32) (ix2 p q)) * (broadcastTo S5000x3 (shapeCast S5000x1 x2 shapeCasts_S5000x1_S5000x1) broadcasts_S5000x1_S5000x3 (ix2 p q)) = _
  rw [h1, h2]

/-- The printed index maps, decided over the grid: the three row-blocked windows are at block row t, column block 0;
    the weight window is always at block (0, 0). -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0 :=
  (by decide +kernel : ∀ t : Fin grid0.N, _)

theorem t_lt (t : Fin cfg0.N) : t.val < 20 := lt_of_lt_of_eq t.isLt (show cfg0.N = 20 from N_0)

variable (V : (c : Dev nD) → (b : Ref sig .tc) → Buf (Elt Ideal) ((c : Thread nD τ).loc b))

/-- The feature window's block at point t is rows 5000·t … of the feature matrix. -/
theorem blk_X (c : Dev nD) (t : Fin cfg0.N) (p : Fin 5000) (k : Fin 256) (n : Fin 100000) (hn : n.val = t.val * 5000 + p.val) :
    (iblk0 V c 0 t : S5000x256.Idx → EReal) (ix2 p k) = (V c main_arg0 : S100000x256.Idx → EReal) (ix2 n k) := by
  obtain ⟨e0, e1, -⟩ := idx_facts t
  show (V c main_arg0 : S100000x256.Idx → EReal) (((cfg0.win 0).blk t).view.emb (ix2 p k)) = _
  refine congrArg _ (funext fun a => Fin.ext ?_)
  match a with
  | ⟨0, _⟩ => show win0_0.index t (0 : Fin 2) * 5000 + 1 * p.val = n.val; rw [e0, hn]; omega
  | ⟨1, _⟩ => show win0_0.index t (1 : Fin 2) * 256 + 1 * k.val = k.val; rw [e1]; omega

/-- The weight window's block at every point is the whole weight matrix. -/
theorem blk_W (c : Dev nD) (t : Fin cfg0.N) (k : Fin 256) (q : Fin 3) :
    (iblk0 V c 1 t : S256x3.Idx → EReal) (ix2 k q) = (V c main_arg2 : S256x3.Idx → EReal) (ix2 k q) := by
  obtain ⟨-, -, e2, e3, -⟩ := idx_facts t
  show (V c main_arg2 : S256x3.Idx → EReal) (((cfg0.win 1).blk t).view.emb (ix2 k q)) = _
  refine congrArg _ (funext fun a => Fin.ext ?_)
  match a with
  | ⟨0, _⟩ => show win0_1.index t (0 : Fin 2) * 256 + 1 * k.val = k.val; rw [e2]; omega
  | ⟨1, _⟩ => show win0_1.index t (1 : Fin 2) * 3 + 1 * q.val = q.val; rw [e3]; omega

/-- The factor window's block at point t is rows 5000·t … of the factor column. -/
theorem blk_D (c : Dev nD) (t : Fin cfg0.N) (p : Fin 5000) (n : Fin 100000) (hn : n.val = t.val * 5000 + p.val) :
    (iblk0 V c 2 t : S5000x1.Idx → EReal) (ix2 p 0) = (V c main_v15 : S100000x1.Idx → EReal) (ix2 n 0) := by
  obtain ⟨-, -, -, -, e4, e5, -⟩ := idx_facts t
  show (V c main_v15 : S100000x1.Idx → EReal) (((cfg0.win 2).blk t).view.emb (ix2 p 0)) = _
  refine congrArg _ (funext fun a => Fin.ext ?_)
  match a with
  | ⟨0, _⟩ => show win0_2.index t (0 : Fin 2) * 5000 + 1 * p.val = n.val; rw [e4, hn]; omega
  | ⟨1, _⟩ => show win0_2.index t (1 : Fin 2) * 1 + 1 * 0 = 0; rw [e5]

/-- WHAT POINT t WRITES BACK is block t of scaledRows of the arrays the region found. -/
theorem flushed_eq (c : Dev nD) (t : Fin cfg0.N) :
    (dat0 V c).flushed 3 t = ((cfg0.win 3).blk t).view.read (Elt Ideal) (scaledRows (V c main_arg0) (V c main_arg2) (V c main_v15)) := by
  show (cfg0.win 3).cut (grid0.coords t) ((dat0 V c).after 3 t) = _
  rw [after0_3]
  unfold out0_3
  rw [View.canon_unit_zero hz]
  simp only [View.ld_unit_zero (S := S5000x256) hz, View.ld_unit_zero (S := S256x3) hz, View.ld_unit_zero (S := S5000x1) hz]
  funext j
  have ht := t_lt t
  have hj0 : (j 0).val < 5000 := (j 0).isLt
  have hj1 : (j 1).val < 3 := (j 1).isLt
  obtain ⟨-, -, -, -, -, -, e6, e7⟩ := idx_facts t
  have hx : (win0 3).xinj (grid0.coords t) j = ix2 (⟨(j 0).val, hj0⟩ : Fin 5000) (⟨(j 1).val, hj1⟩ : Fin 3) :=
    funext fun a => by
      match a with
      | ⟨0, _⟩ => rfl
      | ⟨1, _⟩ => rfl
  have hemb : ((cfg0.win 3).blk t).view.emb j = ix2 (⟨t.val * 5000 + (j 0).val, by omega⟩ : Fin 100000) (⟨(j 1).val, hj1⟩ : Fin 3) :=
    funext fun a => Fin.ext (by
      match a with
      | ⟨0, _⟩ => show win0_3.index t (0 : Fin 2) * 5000 + 1 * (j 0).val = t.val * 5000 + (j 0).val; rw [e6]; omega
      | ⟨1, _⟩ => show win0_3.index t (1 : Fin 2) * 3 + 1 * (j 1).val = (j 1).val; rw [e7]; omega)
  show k0_pay1 (iblk0 V c 0 t) (iblk0 V c 1 t) (iblk0 V c 2 t) ((win0 3).xinj (grid0.coords t) j)
    = scaledRows (V c main_arg0) (V c main_arg2) (V c main_v15) (((cfg0.win 3).blk t).view.emb j)
  rw [hx, hemb, scaledRows_apply]
  refine (pay_apply (iblk0 V c 0 t) (iblk0 V c 1 t) (iblk0 V c 2 t) ⟨(j 0).val, hj0⟩ ⟨(j 1).val, hj1⟩).trans ?_
  rw [blk_D V c t ⟨(j 0).val, hj0⟩ ⟨t.val * 5000 + (j 0).val, by omega⟩ rfl]
  refine congrArg (· * _) (Finset.sum_congr rfl fun k _ => ?_)
  rw [blk_X V c t ⟨(j 0).val, hj0⟩ k ⟨t.val * 5000 + (j 0).val, by omega⟩ rfl, blk_W V c t k ⟨(j 1).val, hj1⟩]

/-- An index of the result is in point t's block iff each coordinate is in the block's range on its axis. -/
theorem mem_blk (t : Fin cfg0.N) (i : S100000x3.Idx) :
    i ∈ ((cfg0.win 3).blk t).view.set ↔ ∀ a : Fin 2, win0_3.index t a * S5000x3.size a ≤ (i a).val ∧ (i a).val < win0_3.index t a * S5000x3.size a + S5000x3.size a := by
  show i ∈ ((View.whole main_v16).slice (win0_3.rect t)).set ↔ _
  rw [View.set_slice_whole, Rect.mem_set_unit]
  exact Iff.rfl

/-- Every block row is some point's. -/
theorem idx_onto : ∀ r : Fin 20, ∃ t : Fin cfg0.N, win0_3.index t = ![r.val, 0] :=
  (by decide +kernel : ∀ r : Fin 20, ∃ t : Fin grid0.N, win0_3.index t = ![r.val, 0])

/-- Every index of the result is in the block of the point that handles its row. -/
theorem cover (i : S100000x3.Idx) : ∃ t : Fin cfg0.N, (cfg0.win 3).flush t = true ∧ i ∈ ((cfg0.win 3).blk t).view.set := by
  have hi0 : (i 0).val < 100000 := (i 0).isLt
  have hi1 : (i 1).val < 3 := (i 1).isLt
  obtain ⟨t, ht⟩ := idx_onto ⟨(i 0).val / 5000, by omega⟩
  have q0 : win0_3.index t (0 : Fin 2) = (i 0).val / 5000 := congrFun ht 0
  have q1 : win0_3.index t (1 : Fin 2) = 0 := congrFun ht 1
  refine ⟨t, flush0_3 t, ?_⟩
  rw [mem_blk]
  intro a
  match a with
  | ⟨0, _⟩ => show win0_3.index t (0 : Fin 2) * 5000 ≤ (i 0).val ∧ (i 0).val < win0_3.index t (0 : Fin 2) * 5000 + 5000; omega
  | ⟨1, _⟩ => show win0_3.index t (1 : Fin 2) * 3 ≤ (i 1).val ∧ (i 1).val < win0_3.index t (1 : Fin 2) * 3 + 3; omega

/-- THE ARRAY THE REGION LEAVES: scaledRows of the feature matrix, the weight matrix and the factor column it found. -/
theorem final (c : Dev nD) : (dat0 V c).arrAt 3 cfg0.N = scaledRows (V c main_arg0) (V c main_arg2) (V c main_v15) :=
  (dat0 V c).arrAt_eq_of_cover 3 _ (fun t _ => flushed_eq V c t) cover

end Cert.KernelIdeal.Region0

end
-- ==== Proof.Region1.lean ====
/-
  The second region's two result arrays as functions of the arrays the region finds.

  The region's grid has 20 points. At point t its body reads rows 5000·t … 5000·t + 4999 of the aggregated messages
  A [100000, 3] and of the node-factor column D [100000, 1], and all of the bias b [3], the weight matrix W [3, 7] and
  the bias b' [7]. It writes the same rows of two results: first max (A · D + b, 0), the factor broadcast along the
  columns and the bias along the rows; then that value times W (rounding to bf16 on the way into the matrix unit is
  the identity on the extended reals) plus b'. So block t of each result is block t of ONE whole-array function:
  reluRows A D b, whose entry (n, q) is max (A (n, q) · D (n, 0) + b q) 0, and linearRows H W b', whose entry (n, j) is
  Σ_c H (n, c) · W (c, j) + b' j, at H = reluRows A D b (flushed5_eq, flushed6_eq). Every row lies in the block of
  point n / 5000 (cover5, cover6), hence the arrays the region leaves are those functions of the arrays it found
  (final5, final6).
-/
import proofs.«133385_j39960375722198_2_alg».proof.Proof.Gen.KernelIdeal.Frame
import proofs.«133385_j39960375722198_2_alg».proof.Proof.LibPlainDot
import Idealize.ShloMosaic.Lib.Pipeline.Value
import Idealize.ShloMosaic.Lib.ValueLayout

set_option maxRecDepth 16384

noncomputable section

open scoped BigOperators

namespace Cert.KernelIdeal.Region1

open Cert.KernelIdeal Cert.KernelIdeal.Gen
open Idealize.ShloMosaic Idealize.ShloMosaic.TcCoe Idealize.ShloMosaic.ValueIdx Idealize.SL.Sem
open Idealize.ShloMosaic.Pipeline (Dat)

/-- The first result: entry (n, q) is the aggregated message scaled by the node's factor, plus the bias, cut below at zero. -/
def reluRows (A : S100000x3.Idx → EReal) (D : S100000x1.Idx → EReal) (b : S3.Idx → EReal) : S100000x3.Idx → EReal :=
  fun i => max (A (ix2 ⟨(i 0).val, idx2_lt0 i⟩ ⟨(i 1).val, idx2_lt1 i⟩) * D (ix2 ⟨(i 0).val, idx2_lt0 i⟩ 0) + b (ix1 ⟨(i 1).val, idx2_lt1 i⟩)) 0

theorem reluRows_apply (A : S100000x3.Idx → EReal) (D : S100000x1.Idx → EReal) (b : S3.Idx → EReal) (n : Fin 100000) (q : Fin 3) :
    reluRows A D b (ix2 n q) = max (A (ix2 n q) * D (ix2 n 0) + b (ix1 q)) 0 := rfl

/-- The second result: entry (n, j) is row n of H times column j of W, plus the bias. -/
def linearRows (H : S100000x3.Idx → EReal) (Wt : S3x7.Idx → EReal) (b : S7.Idx → EReal) : S100000x7.Idx → EReal :=
  fun i => (∑ k : Fin 3, H (ix2 ⟨(i 0).val, idx2_lt0 i⟩ k) * Wt (ix2 k ⟨(i 1).val, idx2_lt1 i⟩)) + b (ix1 ⟨(i 1).val, idx2_lt1 i⟩)

theorem linearRows_apply (H : S100000x3.Idx → EReal) (Wt : S3x7.Idx → EReal) (b : S7.Idx → EReal) (n : Fin 100000) (j : Fin 7) :
    linearRows H Wt b (ix2 n j) = (∑ k : Fin 3, H (ix2 n k) * Wt (ix2 k j)) + b (ix1 j) := rfl

theorem hz : (![0, 0] : Fin 2 → Nat) = fun _ => 0 := funext fun a => by fin_cases a <;> rfl
theorem hz1 : (![0] : Fin 1 → Nat) = fun _ => 0 := funext fun a => by fin_cases a; rfl

/-- The first stored value at (p, q). -/
theorem pay1_apply (v0 : Vec Ideal S5000x3 .f32) (v2 : Vec Ideal S5000x1 .f32) (v4 : Vec Ideal S3 .f32) (p : Fin 5000) (q : Fin 3) :
    k1_pay1 v0 v2 v4 (ix2 p q) = max (v0 (ix2 p q) * v2 (ix2 p 0) + v4 (ix1 q)) 0 := by
  have ha : shapeCast S5000x3 v0 shapeCasts_S5000x3_S5000x3 = v0 := shapeCast_self _ _
  have hb : broadcastTo S5000x3 (shapeCast S5000x1 v2 shapeCasts_S5000x1_S5000x1) broadcasts_S5000x1_S5000x3 (ix2 p q) = v2 (ix2 p 0) := by
    rw [shapeCast_self]
    exact broadcastTo_apply v2 broadcasts_S5000x1_S5000x3 (ix2 p q) (ix2 p 0) (fun a => match a with
      | ⟨0, _⟩ => by show p.val = if (5000 : Nat) = 1 then 0 else p.val; rw [if_neg (by decide)]
      | ⟨1, _⟩ => by show (0 : Nat) = if (1 : Nat) = 1 then 0 else q.val; rw [if_pos rfl])
  have hc : broadcastTo S5000x3 (shapeCast S1x3 v4 shapeCasts_S3_S1x3) broadcasts_S1x3_S5000x3 (ix2 p q) = v4 (ix1 q) :=
    (broadcastTo_1b_ab_apply _ broadcasts_S1x3_S5000x3 p q).trans (shapeCast_a_1a_apply v4 shapeCasts_S3_S1x3 0 q)
  unfold k1_pay1
  show max ((shapeCast S5000x3 v0 shapeCasts_S5000x3_S5000x3) (ix2 p q)
        * (broadcastTo S5000x3 (shapeCast S5000x1 v2 shapeCasts_S5000x1_S5000x1) broadcasts_S5000x1_S5000x3 (ix2 p q))
      + (broadcastTo S5000x3 (shapeCast S1x3 v4 shapeCasts_S3_S1x3) broadcasts_S1x3_S5000x3 (ix2 p q)))
    (Ideal.ofBits .f32 0x00000000#32) = _
  rw [ha, hb, hc, Ideal.ofBits_zero_f32]

/-- The second stored value at (p, j): the first stored value's row p times column j of the loaded weights, plus the loaded bias. -/
theorem pay2_apply (v0 : Vec Ideal S5000x3 .f32) (v2 : Vec Ideal S5000x1 .f32) (v4 : Vec Ideal S3 .f32) (v14 : Vec Ideal S3x7 .f32)
    (v17 : Vec Ideal S7 .f32) (p : Fin 5000) (j : Fin 7) :
    k1_pay2 v0 v2 v4 v14 v17 (ix2 p j) = (∑ k : Fin 3, k1_pay1 v0 v2 v4 (ix2 p k) * v14 (ix2 k j)) + v17 (ix1 j) := by
  have h1 : matmul dot_S5000x3_S3x7_S5000x7_1_0_0_1_n_n none (truncf .bf16 (k1_pay1 v0 v2 v4) bitsLt_bf16_f32) (truncf .bf16 v14 bitsLt_bf16_f32)
      (constant (F := Ideal) S5000x7 .f32 0x00000000#32) (ix2 p j) = ∑ k : Fin 3, k1_pay1 v0 v2 v4 (ix2 p k) * v14 (ix2 k j) :=
    Cert.PlainDot.matmul_zero_apply dot_S5000x3_S3x7_S5000x7_1_0_0_1_n_n rfl rfl rfl rfl rfl rfl none _ _ p j
  have h2 : broadcastTo S5000x7 (shapeCast S1x7 v17 shapeCasts_S7_S1x7) broadcasts_S1x7_S5000x7 (ix2 p j) = v17 (ix1 j) :=
    (broadcastTo_1b_ab_apply _ broadcasts_S1x7_S5000x7 p j).trans (shapeCast_a_1a_apply v17 shapeCasts_S7_S1x7 0 j)
  unfold k1_pay2
  show (matmul dot_S5000x3_S3x7_S5000x7_1_0_0_1_n_n none (truncf .bf16 (k1_pay1 v0 v2 v4) bitsLt_bf16_f32) (truncf .bf16 v14 bitsLt_bf16_f32)
      (constant (F := Ideal) S5000x7 .f32 0x00000000#32) (ix2 p j))
    + (broadcastTo S5000x7 (shapeCast S1x7 v17 shapeCasts_S7_S1x7) broadcasts_S1x7_S5000x7 (ix2 p j)) = _
  rw [h1, h2]

/-- The printed index maps, decided over the grid: the four row-blocked windows are at block row t, column block 0;
    the bias and weight windows are always at block 0. -/
theorem idx_facts : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 1) = 0
    ∧ win1_3.index t (0 : Fin 2) = 0 ∧ win1_3.index t (1 : Fin 2) = 0
    ∧ win1_4.index t (0 : Fin 1) = 0
    ∧ win1_5.index t (0 : Fin 2) = t.val ∧ win1_5.index t (1 : Fin 2) = 0
    ∧ win1_6.index t (0 : Fin 2) = t.val ∧ win1_6.index t (1 : Fin 2) = 0 :=
  (by decide +kernel : ∀ t : Fin grid1.N, _)

theorem t_lt (t : Fin cfg1.N) : t.val < 20 := lt_of_lt_of_eq t.isLt (show cfg1.N = 20 from N_1)

variable (V : (c : Dev nD) → (b : Ref sig .tc) → Buf (Elt Ideal) ((c : Thread nD τ).loc b))

/-- The message window's block at point t is rows 5000·t … of the aggregated messages. -/
theorem blk_A (c : Dev nD) (t : Fin cfg1.N) (p : Fin 5000) (q : Fin 3) (n : Fin 100000) (hn : n.val = t.val * 5000 + p.val) :
    (iblk1 V c 0 t : S5000x3.Idx → EReal) (ix2 p q) = (V c main_v26 : S100000x3.Idx → EReal) (ix2 n q) := by
  obtain ⟨e0, e1, -⟩ := idx_facts t
  show (V c main_v26 : S100000x3.Idx → EReal) (((cfg1.win 0).blk t).view.emb (ix2 p q)) = _
  refine congrArg _ (funext fun a => Fin.ext ?_)
  match a with
  | ⟨0, _⟩ => show win1_0.index t (0 : Fin 2) * 5000 + 1 * p.val = n.val; rw [e0, hn]; omega
  | ⟨1, _⟩ => show win1_0.index t (1 : Fin 2) * 3 + 1 * q.val = q.val; rw [e1]; omega

/-- The factor window's block at point t is rows 5000·t … of the factor column. -/
theorem blk_D (c : Dev nD) (t : Fin cfg1.N) (p : Fin 5000) (n : Fin 100000) (hn : n.val = t.val * 5000 + p.val) :
    (iblk1 V c 1 t : S5000x1.Idx → EReal) (ix2 p 0) = (V c main_v15 : S100000x1.Idx → EReal) (ix2 n 0) := by
  obtain ⟨-, -, e2, e3, -⟩ := idx_facts t
  show (V c main_v15 : S100000x1.Idx → EReal) (((cfg1.win 1).blk t).view.emb (ix2 p 0)) = _
  refine congrArg _ (funext fun a => Fin.ext ?_)
  match a with
  | ⟨0, _⟩ => show win1_1.index t (0 : Fin 2) * 5000 + 1 * p.val = n.val; rw [e2, hn]; omega
  | ⟨1, _⟩ => show win1_1.index t (1 : Fin 2) * 1 + 1 * 0 = 0; rw [e3]

/-- The first bias window's block at every point is the whole bias. -/
theorem blk_b (c : Dev nD) (t : Fin cfg1.N) (q : Fin 3) :
    (iblk1 V c 2 t : S3.Idx → EReal) (ix1 q) = (V c main_arg3 : S3.Idx → EReal) (ix1 q) := by
  obtain ⟨-, -, -, -, e4, -⟩ := idx_facts t
  show (V c main_arg3 : S3.Idx → EReal) (((cfg1.win 2).blk t).view.emb (ix1 q)) = _
  refine congrArg _ (funext fun a => Fin.ext ?_)
  match a with
  | ⟨0, _⟩ => show win1_2.index t (0 : Fin 1) * 3 + 1 * q.val = q.val; rw [e4]; omega

/-- The weight window's block at every point is the whole weight matrix. -/
theorem blk_W (c : Dev nD) (t : Fin cfg1.N) (k : Fin 3) (j : Fin 7) :
    (iblk1 V c 3 t : S3x7.Idx → EReal) (ix2 k j) = (V c main_arg4 : S3x7.Idx → EReal) (ix2 k j) := by
  obtain ⟨-, -, -, -, -, e5, e6, -⟩ := idx_facts t
  show (V c main_arg4 : S3x7.Idx → EReal) (((cfg1.win 3).blk t).view.emb (ix2 k j)) = _
  refine congrArg _ (funext fun a => Fin.ext ?_)
  match a with
  | ⟨0, _⟩ => show win1_3.index t (0 : Fin 2) * 3 + 1 * k.val = k.val; rw [e5]; omega
  | ⟨1, _⟩ => show win1_3.index t (1 : Fin 2) * 7 + 1 * j.val = j.val; rw [e6]; omega

/-- The second bias window's block at every point is the whole bias. -/
theorem blk_b' (c : Dev nD) (t : Fin cfg1.N) (j : Fin 7) :
    (iblk1 V c 4 t : S7.Idx → EReal) (ix1 j) = (V c main_arg5 : S7.Idx → EReal) (ix1 j) := by
  obtain ⟨-, -, -, -, -, -, -, e7, -⟩ := idx_facts t
  show (V c main_arg5 : S7.Idx → EReal) (((cfg1.win 4).blk t).view.emb (ix1 j)) = _
  refine congrArg _ (funext fun a => Fin.ext ?_)
  match a with
  | ⟨0, _⟩ => show win1_4.index t (0 : Fin 1) * 7 + 1 * j.val = j.val; rw [e7]; omega

/-- The first stored value of point t at (p, q) is reluRows of the arrays the region found at row 5000·t + p. -/
theorem pay1_blocks (c : Dev nD) (t : Fin cfg1.N) (p : Fin 5000) (q : Fin 3) (n : Fin 100000) (hn : n.val = t.val * 5000 + p.val) :
    k1_pay1 (iblk1 V c 0 t) (iblk1 V c 1 t) (iblk1 V c 2 t) (ix2 p q)
      = reluRows (V c main_v26) (V c main_v15) (V c main_arg3) (ix2 n q) := by
  refine (pay1_apply (iblk1 V c 0 t) (iblk1 V c 1 t) (iblk1 V c 2 t) p q).trans ?_
  rw [reluRows_apply, blk_A V c t p q n hn, blk_D V c t p n hn, blk_b V c t q]

/-- WHAT POINT t WRITES BACK TO THE FIRST RESULT is block t of reluRows of the arrays the region found. -/
theorem flushed5_eq (c : Dev nD) (t : Fin cfg1.N) :
    (dat1 V c).flushed 5 t = ((cfg1.win 5).blk t).view.read (Elt Ideal) (reluRows (V c main_v26) (V c main_v15) (V c main_arg3)) := by
  show (cfg1.win 5).cut (grid1.coords t) ((dat1 V c).after 5 t) = _
  rw [after1_5]
  unfold out1_5
  rw [View.canon_unit_zero hz]
  simp only [View.ld_unit_zero (S := S5000x3) hz, View.ld_unit_zero (S := S5000x1) hz, View.ld_unit_zero (S := S3) hz1]
  funext j
  have ht := t_lt t
  have hj0 : (j 0).val < 5000 := (j 0).isLt
  have hj1 : (j 1).val < 3 := (j 1).isLt
  obtain ⟨-, -, -, -, -, -, -, -, e8, e9, -⟩ := idx_facts t
  have hx : (win1 5).xinj (grid1.coords t) j = ix2 (⟨(j 0).val, hj0⟩ : Fin 5000) (⟨(j 1).val, hj1⟩ : Fin 3) :=
    funext fun a => by
      match a with
      | ⟨0, _⟩ => rfl
      | ⟨1, _⟩ => rfl
  have hemb : ((cfg1.win 5).blk t).view.emb j = ix2 (⟨t.val * 5000 + (j 0).val, by omega⟩ : Fin 100000) (⟨(j 1).val, hj1⟩ : Fin 3) :=
    funext fun a => Fin.ext (by
      match a with
      | ⟨0, _⟩ => show win1_5.index t (0 : Fin 2) * 5000 + 1 * (j 0).val = t.val * 5000 + (j 0).val; rw [e8]; omega
      | ⟨1, _⟩ => show win1_5.index t (1 : Fin 2) * 3 + 1 * (j 1).val = (j 1).val; rw [e9]; omega)
  show k1_pay1 (iblk1 V c 0 t) (iblk1 V c 1 t) (iblk1 V c 2 t) ((win1 5).xinj (grid1.coords t) j)
    = reluRows (V c main_v26) (V c main_v15) (V c main_arg3) (((cfg1.win 5).blk t).view.emb j)
  rw [hx, hemb]
  exact pay1_blocks V c t ⟨(j 0).val, hj0⟩ ⟨(j 1).val, hj1⟩ ⟨t.val * 5000 + (j 0).val, by omega⟩ rfl

/-- WHAT POINT t WRITES BACK TO THE SECOND RESULT is block t of linearRows of reluRows of the arrays the region found. -/
theorem flushed6_eq (c : Dev nD) (t : Fin cfg1.N) :
    (dat1 V c).flushed 6 t = ((cfg1.win 6).blk t).view.read (Elt Ideal)
      (linearRows (reluRows (V c main_v26) (V c main_v15) (V c main_arg3)) (V c main_arg4) (V c main_arg5)) := by
  show (cfg1.win 6).cut (grid1.coords t) ((dat1 V c).after 6 t) = _
  rw [after1_6]
  unfold out1_6
  rw [View.canon_unit_zero hz]
  simp only [View.ld_unit_zero (S := S5000x3) hz, View.ld_unit_zero (S := S5000x1) hz, View.ld_unit_zero (S := S3) hz1,
    View.ld_unit_zero (S := S3x7) hz, View.ld_unit_zero (S := S7) hz1]
  funext j
  have ht := t_lt t
  have hj0 : (j 0).val < 5000 := (j 0).isLt
  have hj1 : (j 1).val < 7 := (j 1).isLt
  obtain ⟨-, -, -, -, -, -, -, -, -, -, e10, e11⟩ := idx_facts t
  have hx : (win1 6).xinj (grid1.coords t) j = ix2 (⟨(j 0).val, hj0⟩ : Fin 5000) (⟨(j 1).val, hj1⟩ : Fin 7) :=
    funext fun a => by
      match a with
      | ⟨0, _⟩ => rfl
      | ⟨1, _⟩ => rfl
  have hemb : ((cfg1.win 6).blk t).view.emb j = ix2 (⟨t.val * 5000 + (j 0).val, by omega⟩ : Fin 100000) (⟨(j 1).val, hj1⟩ : Fin 7) :=
    funext fun a => Fin.ext (by
      match a with
      | ⟨0, _⟩ => show win1_6.index t (0 : Fin 2) * 5000 + 1 * (j 0).val = t.val * 5000 + (j 0).val; rw [e10]; omega
      | ⟨1, _⟩ => show win1_6.index t (1 : Fin 2) * 7 + 1 * (j 1).val = (j 1).val; rw [e11]; omega)
  show k1_pay2 (iblk1 V c 0 t) (iblk1 V c 1 t) (iblk1 V c 2 t) (iblk1 V c 3 t) (iblk1 V c 4 t) ((win1 6).xinj (grid1.coords t) j)
    = linearRows (reluRows (V c main_v26) (V c main_v15) (V c main_arg3)) (V c main_arg4) (V c main_arg5) (((cfg1.win 6).blk t).view.emb j)
  rw [hx, hemb, linearRows_apply]
  refine (pay2_apply (iblk1 V c 0 t) (iblk1 V c 1 t) (iblk1 V c 2 t) (iblk1 V c 3 t) (iblk1 V c 4 t) ⟨(j 0).val, hj0⟩ ⟨(j 1).val, hj1⟩).trans ?_
  rw [blk_b' V c t ⟨(j 1).val, hj1⟩]
  refine congrArg (· + _) (Finset.sum_congr rfl fun k _ => ?_)
  rw [pay1_blocks V c t ⟨(j 0).val, hj0⟩ k ⟨t.val * 5000 + (j 0).val, by omega⟩ rfl, blk_W V c t k ⟨(j 1).val, hj1⟩]

/-- An index of the first result is in point t's block iff each coordinate is in the block's range on its axis. -/
theorem mem_blk5 (t : Fin cfg1.N) (i : S100000x3.Idx) :
    i ∈ ((cfg1.win 5).blk t).view.set ↔ ∀ a : Fin 2, win1_5.index t a * S5000x3.size a ≤ (i a).val ∧ (i a).val < win1_5.index t a * S5000x3.size a + S5000x3.size a := by
  show i ∈ ((View.whole main_v27_0).slice (win1_5.rect t)).set ↔ _
  rw [View.set_slice_whole, Rect.mem_set_unit]
  exact Iff.rfl

/-- The same for the second result. -/
theorem mem_blk6 (t : Fin cfg1.N) (i : S100000x7.Idx) :
    i ∈ ((cfg1.win 6).blk t).view.set ↔ ∀ a : Fin 2, win1_6.index t a * S5000x7.size a ≤ (i a).val ∧ (i a).val < win1_6.index t a * S5000x7.size a + S5000x7.size a := by
  show i ∈ ((View.whole main_v27_1).slice (win1_6.rect t)).set ↔ _
  rw [View.set_slice_whole, Rect.mem_set_unit]
  exact Iff.rfl

/-- Every block row is some point's, for both results. -/
theorem idx_onto : ∀ r : Fin 20, ∃ t : Fin cfg1.N, win1_5.index t = ![r.val, 0] ∧ win1_6.index t = ![r.val, 0] :=
  (by decide +kernel : ∀ r : Fin 20, ∃ t : Fin grid1.N, win1_5.index t = ![r.val, 0] ∧ win1_6.index t = ![r.val, 0])

/-- Every index of the first result is in the block of the point that handles its row. -/
theorem cover5 (i : S100000x3.Idx) : ∃ t : Fin cfg1.N, (cfg1.win 5).flush t = true ∧ i ∈ ((cfg1.win 5).blk t).view.set := by
  have hi0 : (i 0).val < 100000 := (i 0).isLt
  have hi1 : (i 1).val < 3 := (i 1).isLt
  obtain ⟨t, ht, -⟩ := idx_onto ⟨(i 0).val / 5000, by omega⟩
  have q0 : win1_5.index t (0 : Fin 2) = (i 0).val / 5000 := congrFun ht 0
  have q1 : win1_5.index t (1 : Fin 2) = 0 := congrFun ht 1
  refine ⟨t, flush1_5 t, ?_⟩
  rw [mem_blk5]
  intro a
  match a with
  | ⟨0, _⟩ => show win1_5.index t (0 : Fin 2) * 5000 ≤ (i 0).val ∧ (i 0).val < win1_5.index t (0 : Fin 2) * 5000 + 5000; omega
  | ⟨1, _⟩ => show win1_5.index t (1 : Fin 2) * 3 ≤ (i 1).val ∧ (i 1).val < win1_5.index t (1 : Fin 2) * 3 + 3; omega

/-- Every index of the second result is in the block of the point that handles its row. -/
theorem cover6 (i : S100000x7.Idx) : ∃ t : Fin cfg1.N, (cfg1.win 6).flush t = true ∧ i ∈ ((cfg1.win 6).blk t).view.set := by
  have hi0 : (i 0).val < 100000 := (i 0).isLt
  have hi1 : (i 1).val < 7 := (i 1).isLt
  obtain ⟨t, -, ht⟩ := idx_onto ⟨(i 0).val / 5000, by omega⟩
  have q0 : win1_6.index t (0 : Fin 2) = (i 0).val / 5000 := congrFun ht 0
  have q1 : win1_6.index t (1 : Fin 2) = 0 := congrFun ht 1
  refine ⟨t, flush1_6 t, ?_⟩
  rw [mem_blk6]
  intro a
  match a with
  | ⟨0, _⟩ => show win1_6.index t (0 : Fin 2) * 5000 ≤ (i 0).val ∧ (i 0).val < win1_6.index t (0 : Fin 2) * 5000 + 5000; omega
  | ⟨1, _⟩ => show win1_6.index t (1 : Fin 2) * 7 ≤ (i 1).val ∧ (i 1).val < win1_6.index t (1 : Fin 2) * 7 + 7; omega

/-- THE FIRST ARRAY THE REGION LEAVES: reluRows of the messages, the factor column and the bias it found. -/
theorem final5 (c : Dev nD) : (dat1 V c).arrAt 5 cfg1.N = reluRows (V c main_v26) (V c main_v15) (V c main_arg3) :=
  (dat1 V c).arrAt_eq_of_cover 5 _ (fun t _ => flushed5_eq V c t) cover5

/-- THE SECOND ARRAY THE REGION LEAVES: linearRows of that, the weight matrix and the second bias it found. -/
theorem final6 (c : Dev nD) : (dat1 V c).arrAt 6 cfg1.N
    = linearRows (reluRows (V c main_v26) (V c main_v15) (V c main_arg3)) (V c main_arg4) (V c main_arg5) :=
  (dat1 V c).arrAt_eq_of_cover 6 _ (fun t _ => flushed6_eq V c t) cover6

end Cert.KernelIdeal.Region1

end
-- ==== Proof.KernelBoundary.lean ====
/-
  The idealized kernel's two result arrays as functions of the argument arrays.

  Between the launch and the return the buffer contents pass six boundaries: three stretches of host operations
  (the edge lists with the self loops appended, the in-degree by an accumulating scatter of ones, the node factor
  where (degree > 0) (rsqrt degree) 0, its reshape to a column), the first region, a stretch (the gather of the
  region's rows at the source nodes, the accumulating scatter of those rows at the destination nodes), the second
  region. Read through those boundaries (each stretch by unfolding its fold; each region by the whole-array function
  of the arrays it found), the first result is reluRows (aggK x0 x1 x2) (dinvCol x1) x3 and the second is linearRows
  of that, x4 and x5 (out0_eq, out1_eq), where aggK is the scatter at the destinations of the gather at the sources of
  scaledRows x0 x2 (dinvCol x1). The host stages are written with the reference program's own stage functions
  (val_main_v3: the source list, val_main_v6: the destination list, val_main_v14: the node factor, val_main_v36: the
  wrapped source column, val_main_v42: the destination column, val_main_v41: the zero array): both programs compute
  those stages by the same operations.
-/
import proofs.«133385_j39960375722198_2_alg».proof.Proof.KernelRun
import proofs.«133385_j39960375722198_2_alg».proof.Proof.Region0
import proofs.«133385_j39960375722198_2_alg».proof.Proof.Region1
import proofs.«133385_j39960375722198_2_alg».proof.Proof.RefReadP
import Idealize.ShloMosaic.Lib.StableHlo.Run

set_option maxRecDepth 16384

noncomputable section

namespace Cert.KernelIdeal.Boundary

open Cert.KernelIdeal Cert.KernelIdeal.Gen
open Idealize.ShloMosaic Idealize.ShloMosaic.TcCoe Idealize.ShloMosaic.ValueIdx Idealize.SL.Sem Idealize.ShloMosaic.StableHlo
open Cert.ReferenceIdeal.ReadP (val_main_v3 val_main_v6 val_main_v12 val_main_v13 val_main_cst_2 val_main_v14 val_main_v36 val_main_v41 val_main_v42)

/-- The node factor as a column. -/
def dinvCol (x1 : IVec S2x3200000 32) : FVec Ideal S100000x1 .f32 :=
  shapeCast S100000x1 (val_main_v14 (F := Ideal) x1) shapeCasts_S100000_S100000x1

/-- The aggregated messages: the rows of the first region's result gathered at the sources, scattered at the destinations. -/
def aggK (x0 : FVec Ideal S100000x256 .f32) (x1 : IVec S2x3200000 32) (x2 : FVec Ideal S256x3 .f32) : FVec Ideal S100000x3 .f32 :=
  Host.scatterAdd (F := Ideal) (φ := .f32) scatter_S100000x3_S3300000x1_S3300000x3_1_0_0_1 (val_main_v41 (F := Ideal)) (val_main_v42 (F := Ideal) x1)
    (Host.gather gather_S100000x3_S3300000x1_S3300000x3_1_0_n_n_0_1_13 (Region0.scaledRows x0 x2 (dinvCol x1) : FVec Ideal S100000x3 .f32) (val_main_v36 (F := Ideal) x1))

variable (m : (ℓ : Loc nD τ sig) → Buf (Elt Ideal) ℓ) (ρ : Dev nD → PrngReg)

/-! ## After the first three host stretches -/

theorem W3_arg0 (c : Dev nD) : W3 m ρ c (Proc.devRef .tc main_arg0) = m ((c.tc : Thread nD τ).loc main_arg0) := by
  show after hostOps0_2 (after hostOps0_1 (after hostOps0 (W0 m ρ c))) (Proc.devRef .tc main_arg0) = _
  dsimp only [hostOps0, hostOps0_1, hostOps0_2]
  after_results_simp <;> rfl

theorem W3_arg2 (c : Dev nD) : W3 m ρ c (Proc.devRef .tc main_arg2) = m ((c.tc : Thread nD τ).loc main_arg2) := by
  show after hostOps0_2 (after hostOps0_1 (after hostOps0 (W0 m ρ c))) (Proc.devRef .tc main_arg2) = _
  dsimp only [hostOps0, hostOps0_1, hostOps0_2]
  after_results_simp <;> rfl

theorem W3_v3 (c : Dev nD) : W3 m ρ c (Proc.devRef .tc main_v3) = val_main_v3 (F := Ideal) (m ((c.tc : Thread nD τ).loc main_arg1)) := by
  show after hostOps0_2 (after hostOps0_1 (after hostOps0 (W0 m ρ c))) (Proc.devRef .tc main_v3) = _
  dsimp only [hostOps0, hostOps0_1, hostOps0_2]
  after_results_simp <;> rfl

theorem W3_v6 (c : Dev nD) : W3 m ρ c (Proc.devRef .tc main_v6) = val_main_v6 (F := Ideal) (m ((c.tc : Thread nD τ).loc main_arg1)) := by
  show after hostOps0_2 (after hostOps0_1 (after hostOps0 (W0 m ρ c))) (Proc.devRef .tc main_v6) = _
  dsimp only [hostOps0, hostOps0_1, hostOps0_2]
  after_results_simp <;> rfl

/-! The node factor is read one stretch at a time (the comparison and the reciprocal square root after the first
    stretch, the selection after the second, the reshape after the third), each earlier boundary held as a variable. -/

theorem W1_v12 (c : Dev nD) : W1 m ρ c (Proc.devRef .tc main_v12) = val_main_v12 (F := Ideal) (m ((c.tc : Thread nD τ).loc main_arg1)) := by
  show after hostOps0 (W0 m ρ c) (Proc.devRef .tc main_v12) = _
  dsimp only [hostOps0]
  after_results_simp <;> rfl

theorem W1_v13 (c : Dev nD) : W1 m ρ c (Proc.devRef .tc main_v13) = val_main_v13 (F := Ideal) (m ((c.tc : Thread nD τ).loc main_arg1)) := by
  show after hostOps0 (W0 m ρ c) (Proc.devRef .tc main_v13) = _
  dsimp only [hostOps0]
  after_results_simp <;> rfl

theorem W1_cst_2 (c : Dev nD) : W1 m ρ c (Proc.devRef .tc main_cst_2) = val_main_cst_2 (F := Ideal) := by
  show after hostOps0 (W0 m ρ c) (Proc.devRef .tc main_cst_2) = _
  dsimp only [hostOps0]
  after_results_simp <;> rfl

theorem W2_v14 (c : Dev nD) : W2 m ρ c (Proc.devRef .tc main_v14) = val_main_v14 (F := Ideal) (m ((c.tc : Thread nD τ).loc main_arg1)) := by
  have e : W2 m ρ c (Proc.devRef .tc main_v14)
      = select (W1 m ρ c (Proc.devRef .tc main_v12)) (W1 m ρ c (Proc.devRef .tc main_v13))
          (broadcastInDim S100000 ![] bcast_S_S100000 (id (W1 m ρ c (Proc.devRef .tc main_cst_2)))) := by
    show after hostOps0_1 (W1 m ρ c) (Proc.devRef .tc main_v14) = _
    generalize W1 m ρ c = V1
    dsimp only [hostOps0_1]
    after_results_simp <;> rfl
  rw [e, W1_v12, W1_v13, W1_cst_2]
  rfl

theorem W3_v15 (c : Dev nD) : W3 m ρ c (Proc.devRef .tc main_v15) = dinvCol (m ((c.tc : Thread nD τ).loc main_arg1)) := by
  have e : W3 m ρ c (Proc.devRef .tc main_v15) = shapeCast S100000x1 (W2 m ρ c (Proc.devRef .tc main_v14)) shapeCasts_S100000_S100000x1 := by
    show after hostOps0_2 (W2 m ρ c) (Proc.devRef .tc main_v15) = _
    generalize W2 m ρ c = V2
    dsimp only [hostOps0_2]
    after_results_simp <;> rfl
  rw [e, W2_v14]
  rfl

/-! ## After the first region -/

theorem W4_v16 (c : Dev nD) : W4 m ρ c (Proc.devRef .tc main_v16)
    = Region0.scaledRows (m ((c.tc : Thread nD τ).loc main_arg0)) (m ((c.tc : Thread nD τ).loc main_arg2)) (dinvCol (m ((c.tc : Thread nD τ).loc main_arg1))) := by
  refine (W4_arr m ρ c 3).trans ((Region0.final (V3 m ρ) c).trans ?_)
  show Region0.scaledRows (W3 m ρ c (Proc.devRef .tc main_arg0)) (W3 m ρ c (Proc.devRef .tc main_arg2)) (W3 m ρ c (Proc.devRef .tc main_v15)) = _
  rw [W3_arg0, W3_arg2, W3_v15]

theorem W4_v3 (c : Dev nD) : W4 m ρ c (Proc.devRef .tc main_v3) = val_main_v3 (F := Ideal) (m ((c.tc : Thread nD τ).loc main_arg1)) :=
  (W4_of_ne m ρ c main_v3 (by decide)).trans (W3_v3 m ρ c)

theorem W4_v6 (c : Dev nD) : W4 m ρ c (Proc.devRef .tc main_v6) = val_main_v6 (F := Ideal) (m ((c.tc : Thread nD τ).loc main_arg1)) :=
  (W4_of_ne m ρ c main_v6 (by decide)).trans (W3_v6 m ρ c)

theorem W4_v15 (c : Dev nD) : W4 m ρ c (Proc.devRef .tc main_v15) = dinvCol (m ((c.tc : Thread nD τ).loc main_arg1)) :=
  ((W4_arr m ρ c 2).trans (((dat0 (V3 m ρ) c).arrAt_in 2 rfl _).trans (A_eq0 (V3 m ρ) c 2))).trans (W3_v15 m ρ c)

/-! ## After the stretch between the regions -/

theorem W5_v26 (c : Dev nD) : W5 m ρ c (Proc.devRef .tc main_v26)
    = aggK (m ((c.tc : Thread nD τ).loc main_arg0)) (m ((c.tc : Thread nD τ).loc main_arg1)) (m ((c.tc : Thread nD τ).loc main_arg2)) := by
  have e : W5 m ρ c (Proc.devRef .tc main_v26)
      = Host.scatterAdd (F := Ideal) (φ := .f32) scatter_S100000x3_S3300000x1_S3300000x3_1_0_0_1
          (broadcastInDim S100000x3 ![] bcast_S_S100000x3 (constant (F := Ideal) S_ .f32 0x00000000#32))
          (broadcastInDim S3300000x1 ![0] bcast_S3300000_S3300000x1_0 (W4 m ρ c (Proc.devRef .tc main_v6)))
          (Host.gather gather_S100000x3_S3300000x1_S3300000x3_1_0_n_n_0_1_13 (W4 m ρ c (Proc.devRef .tc main_v16))
            (broadcastInDim S3300000x1 ![0] bcast_S3300000_S3300000x1_0
              (select (cmpi .slt (W4 m ρ c (Proc.devRef .tc main_v3)) (broadcastInDim S3300000 ![] bcast_S_S3300000 (constantI S_ 32 0#32)))
                (addi (W4 m ρ c (Proc.devRef .tc main_v3)) (broadcastInDim S3300000 ![] bcast_S_S3300000 (constantI S_ 32 100000#32)))
                (W4 m ρ c (Proc.devRef .tc main_v3))))) := by
    show after hostOps1 (W4 m ρ c) (Proc.devRef .tc main_v26) = _
    dsimp only [hostOps1]
    after_results_simp <;> rfl
  rw [e, W4_v6, W4_v16, W4_v3]
  rfl

theorem W5_v15 (c : Dev nD) : W5 m ρ c (Proc.devRef .tc main_v15) = dinvCol (m ((c.tc : Thread nD τ).loc main_arg1)) := by
  refine Eq.trans ?_ (W4_v15 m ρ c)
  show after hostOps1 (W4 m ρ c) (Proc.devRef .tc main_v15) = _
  dsimp only [hostOps1]
  after_results_simp <;> rfl

theorem W5_arg3 (c : Dev nD) : W5 m ρ c (Proc.devRef .tc main_arg3) = m ((c.tc : Thread nD τ).loc main_arg3) :=
  ((W6_arr m ρ c 2).trans (((dat1 (V5 m ρ) c).arrAt_in 2 rfl _).trans (A_eq1 (V5 m ρ) c 2))).symm.trans (W6_main_arg3 m ρ c)

theorem W5_arg4 (c : Dev nD) : W5 m ρ c (Proc.devRef .tc main_arg4) = m ((c.tc : Thread nD τ).loc main_arg4) :=
  ((W6_arr m ρ c 3).trans (((dat1 (V5 m ρ) c).arrAt_in 3 rfl _).trans (A_eq1 (V5 m ρ) c 3))).symm.trans (W6_main_arg4 m ρ c)

theorem W5_arg5 (c : Dev nD) : W5 m ρ c (Proc.devRef .tc main_arg5) = m ((c.tc : Thread nD τ).loc main_arg5) :=
  ((W6_arr m ρ c 4).trans (((dat1 (V5 m ρ) c).arrAt_in 4 rfl _).trans (A_eq1 (V5 m ρ) c 4))).symm.trans (W6_main_arg5 m ρ c)

/-! ## After the second region: the two results -/

/-- The first result array after the run. -/
theorem out0_eq (c : Dev nD) : Named.out0 m ρ c
    = Region1.reluRows (aggK (m ((c.tc : Thread nD τ).loc main_arg0)) (m ((c.tc : Thread nD τ).loc main_arg1)) (m ((c.tc : Thread nD τ).loc main_arg2)))
        (dinvCol (m ((c.tc : Thread nD τ).loc main_arg1))) (m ((c.tc : Thread nD τ).loc main_arg3)) := by
  unfold Named.out0
  refine (W6_arr m ρ c 5).trans ((Region1.final5 (V5 m ρ) c).trans ?_)
  show Region1.reluRows (W5 m ρ c (Proc.devRef .tc main_v26)) (W5 m ρ c (Proc.devRef .tc main_v15)) (W5 m ρ c (Proc.devRef .tc main_arg3)) = _
  rw [W5_v26, W5_v15, W5_arg3]

/-- The second result array after the run. -/
theorem out1_eq (c : Dev nD) : Named.out1 m ρ c
    = Region1.linearRows (Region1.reluRows (aggK (m ((c.tc : Thread nD τ).loc main_arg0)) (m ((c.tc : Thread nD τ).loc main_arg1)) (m ((c.tc : Thread nD τ).loc main_arg2)))
        (dinvCol (m ((c.tc : Thread nD τ).loc main_arg1))) (m ((c.tc : Thread nD τ).loc main_arg3)))
        (m ((c.tc : Thread nD τ).loc main_arg4)) (m ((c.tc : Thread nD τ).loc main_arg5)) := by
  unfold Named.out1
  refine (W6_arr m ρ c 6).trans ((Region1.final6 (V5 m ρ) c).trans ?_)
  show Region1.linearRows (Region1.reluRows (W5 m ρ c (Proc.devRef .tc main_v26)) (W5 m ρ c (Proc.devRef .tc main_v15)) (W5 m ρ c (Proc.devRef .tc main_arg3)))
    (W5 m ρ c (Proc.devRef .tc main_arg4)) (W5 m ρ c (Proc.devRef .tc main_arg5)) = _
  rw [W5_v26, W5_v15, W5_arg3, W5_arg4, W5_arg5]

end Cert.KernelIdeal.Boundary

end
-- ==== Proof.LibScatterRows.lean ====
/-
  An accumulating scatter whose scatter indices are one column of row numbers, read at an index over the extended reals.

  The scatter indices have shape [E, 1]: update row e goes to operand row idx[e, 0], read as a SIGNED integer and
  not clamped; a row number outside [0, N) drops the whole update row. With the exact sum as the combiner, the
  result at (v, k) is the operand's entry plus the sum of upd[e, k] over the update rows e with idx[e, 0] = v
  (rowDims, scatterAdd_rows_apply). The rank-1 form — operand [N], updates [E] — is the same sum without the
  column (vecDims, scatterAdd_vec_apply). Both follow from reading the scatter's result index one axis at a time:
  on the row axis it is the start index, on the column axis the update's own column.
-/
import Idealize.ShloMosaic.PureOps.Ideal
import Idealize.ShloMosaic.Lib.ValueIdx

noncomputable section

open scoped BigOperators

namespace Cert.ScatterRows

open Idealize.ShloMosaic Idealize.ShloMosaic.ValueIdx

/-! ## Rows of width C scattered by one index column -/

/-- The dimension numbers of a row scatter: operand [N, C], scatter indices [E, 1], updates [E, C]; the updates'
    axis 1 is the window axis, the operand's axis 0 is inserted and is the one the index names. -/
abbrev rowDims (N E C : Nat) (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

section Rows
variable {N E C w : Nat} (wf : ScatterDims.WF ⟨2, ![N, C]⟩ ⟨2, ![E, 1]⟩ ⟨2, ![E, C]⟩ [1] [0] [0] 1)

/-- On the row axis the window starts at the row number the index column holds for the update's row. -/
theorem row_start0 (j : (⟨2, ![E, C]⟩ : Shape).Idx) (idx : IVec ⟨2, ![E, 1]⟩ w) :
    (rowDims N E C wf).start j idx 0 = (idx (ix2 (j 0) 0)).toInt := by
  unfold ScatterDims.start
  rw [dif_pos (show (0 : Fin 2) ∈ (rowDims N E C wf).scatterDimsToOperandDims from List.mem_singleton.mpr rfl)]
  have hsi : (rowDims N E C wf).siIdx j ⟨List.idxOf (0 : Fin 2) (rowDims N E C wf).scatterDimsToOperandDims,
      List.idxOf_lt_length_iff.2 (List.mem_singleton.mpr rfl)⟩ = ix2 (j 0) 0 := by
    funext b; refine Fin.ext ?_
    match b with
    | ⟨0, _⟩ => rfl
    | ⟨1, _⟩ => rfl
  rw [hsi]
  rfl

/-- On the column axis the index names nothing: the window starts at column 0. -/
theorem row_start1 (j : (⟨2, ![E, C]⟩ : Shape).Idx) (idx : IVec ⟨2, ![E, 1]⟩ w) :
    (rowDims N E C wf).start j idx 1 = 0 := by
  unfold ScatterDims.start
  rw [dif_neg (show ¬ (1 : Fin 2) ∈ (rowDims N E C wf).scatterDimsToOperandDims from
    (show ¬ (1 : Fin 2) ∈ ([0] : List (Fin 2)) by decide))]

/-- The row axis is inserted: no window coordinate on it. -/
theorem row_window0 (j : (⟨2, ![E, C]⟩ : Shape).Idx) : (rowDims N E C wf).window j 0 = 0 := by
  unfold ScatterDims.window
  rw [dif_neg (show ¬ (0 : Fin 2) ∈ (rowDims N E C wf).sKept from
    (show ¬ (0 : Fin 2) ∈ ([1] : List (Fin 2)) by decide))]

/-- On the column axis the window coordinate is the update's own column. -/
theorem row_window1 (j : (⟨2, ![E, C]⟩ : Shape).Idx) : (rowDims N E C wf).window j 1 = (j 1).val := by
  unfold ScatterDims.window
  rw [dif_pos (show (1 : Fin 2) ∈ (rowDims N E C wf).sKept from
    (show (1 : Fin 2) ∈ ([1] : List (Fin 2)) by decide))]
  rfl

/-- WHERE AN UPDATE LANDS: update (e, c) lands on operand (v, k) exactly when the index column holds v at e and c = k. -/
theorem row_lands_iff (j : (⟨2, ![E, C]⟩ : Shape).Idx) (idx : IVec ⟨2, ![E, 1]⟩ w) (i : (⟨2, ![N, C]⟩ : Shape).Idx) :
    (rowDims N E C wf).resultIdx? j idx = some i ↔
      (idx (ix2 (j 0) 0)).toInt = ((i 0).val : Int) ∧ (j 1).val = (i 1).val := by
  have hi0 : (i 0).val < N := idx2_lt0 i
  have hi1 : (i 1).val < C := idx2_lt1 i
  have hj1 : (j 1).val < C := idx2_lt1 j
  have hs0 : (⟨2, ![N, C]⟩ : Shape).size 0 = N := rfl
  have hs1 : (⟨2, ![N, C]⟩ : Shape).size 1 = C := rfl
  unfold ScatterDims.resultIdx?
  split
  · rename_i h
    have h0 := h 0
    have h1 := h 1
    rw [row_start0, row_window0] at h0
    rw [row_start1, row_window1] at h1
    rw [Option.some.injEq]
    constructor
    · intro he
      have e0 := congrArg (fun f => (f 0).val) he
      have e1 := congrArg (fun f => (f 1).val) he
      simp only [row_start0, row_window0, row_start1, row_window1] at e0 e1
      constructor <;> omega
    · rintro ⟨e0, e1⟩
      funext a
      refine Fin.ext ?_
      match a with
      | ⟨0, _⟩ =>
        show ((rowDims N E C wf).start j idx 0 + ((rowDims N E C wf).window j 0 : Int)).toNat = (i 0).val
        rw [row_start0, row_window0]; omega
      | ⟨1, _⟩ =>
        show ((rowDims N E C wf).start j idx 1 + ((rowDims N E C wf).window j 1 : Int)).toNat = (i 1).val
        rw [row_start1, row_window1]; omega
  · rename_i h
    constructor
    · intro he; exact absurd he (by simp)
    · rintro ⟨e0, e1⟩
      refine absurd (fun a => ?_) h
      match a with
      | ⟨0, _⟩ =>
        show 0 ≤ (rowDims N E C wf).start j idx 0 + ((rowDims N E C wf).window j 0 : Int) ∧
          (rowDims N E C wf).start j idx 0 + ((rowDims N E C wf).window j 0 : Int) < ((⟨2, ![N, C]⟩ : Shape).size 0 : Int)
        rw [row_start0, row_window0, hs0]; omega
      | ⟨1, _⟩ =>
        show 0 ≤ (rowDims N E C wf).start j idx 1 + ((rowDims N E C wf).window j 1 : Int) ∧
          (rowDims N E C wf).start j idx 1 + ((rowDims N E C wf).window j 1 : Int) < ((⟨2, ![N, C]⟩ : Shape).size 1 : Int)
        rw [row_start1, row_window1, hs1]; omega

/-- THE ROW SCATTER READ AT (v, k): the operand's entry plus the sum of column k of the update rows whose row number is v. -/
theorem scatterAdd_rows_apply (x : (⟨2, ![N, C]⟩ : Shape).Idx → EReal) (idx : IVec ⟨2, ![E, 1]⟩ w)
    (upd : (⟨2, ![E, C]⟩ : Shape).Idx → EReal) (v : Fin N) (k : Fin C) :
    Ideal.hostScatterAdd (rowDims N E C wf) x idx upd (ix2 v k) =
      x (ix2 v k) + ∑ e ∈ Finset.univ.filter (fun e : Fin E => (idx (ix2 e 0)).toInt = (v.val : Int)), upd (ix2 e k) := by
  unfold Ideal.hostScatterAdd
  congr 1
  rw [Finset.sum_filter, sum_idx2, Finset.sum_filter]
  refine Finset.sum_congr rfl fun e _ => ?_
  simp only [row_lands_iff]
  by_cases he : (idx (ix2 e 0)).toInt = (v.val : Int)
  · rw [if_pos he]
    rw [Finset.sum_eq_single k]
    · rw [if_pos ⟨he, rfl⟩]
    · intro b _ hb
      rw [if_neg]
      rintro ⟨_, h1⟩
      exact hb (Fin.ext h1)
    · intro h; exact absurd (Finset.mem_univ k) h
  · rw [if_neg he]
    refine Finset.sum_eq_zero fun b _ => ?_
    rw [if_neg]
    rintro ⟨h0, _⟩
    exact he h0

/-- The same for ANY dimension numbers of a row scatter (a program's own record: its four fields are these by
    unfolding), stated for the host operation at the extended reals. -/
theorem host_scatterAdd_rows_apply {φ : FTy} (d : ScatterDims ⟨2, ![N, C]⟩ ⟨2, ![E, 1]⟩ ⟨2, ![E, C]⟩)
    (h1 : d.updateWindowDims = [1]) (h2 : d.insertedWindowDims = [0]) (h3 : d.scatterDimsToOperandDims = [0])
    (h4 : d.indexVectorDim = 1) (x : FVec Ideal ⟨2, ![N, C]⟩ φ) (idx : IVec ⟨2, ![E, 1]⟩ w)
    (upd : FVec Ideal ⟨2, ![E, C]⟩ φ) (v : Fin N) (k : Fin C) :
    Host.scatterAdd d x idx upd (ix2 v k) =
      x (ix2 v k) + ∑ e ∈ Finset.univ.filter (fun e : Fin E => (idx (ix2 e 0)).toInt = (v.val : Int)), upd (ix2 e k) := by
  obtain ⟨uw, iw, sd, iv, wf⟩ := d
  dsimp only at h1 h2 h3 h4
  subst h1 h2 h3 h4
  unfold Host.scatterAdd
  rw [Ideal.hostScatterAdd_def]
  exact scatterAdd_rows_apply wf x idx upd v k

end Rows

/-! ## Scalars scattered by one index column -/

/-- The dimension numbers of the rank-1 form: operand [N], scatter indices [E, 1], updates [E]; no window axis. -/
abbrev vecDims (N E : Nat) (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

section Vec
variable {N E w : Nat} (wf : ScatterDims.WF ⟨1, ![N]⟩ ⟨2, ![E, 1]⟩ ⟨1, ![E]⟩ [] [0] [0] 1)

theorem vec_start0 (j : (⟨1, ![E]⟩ : Shape).Idx) (idx : IVec ⟨2, ![E, 1]⟩ w) :
    (vecDims N E wf).start j idx 0 = (idx (ix2 (j 0) 0)).toInt := by
  unfold ScatterDims.start
  rw [dif_pos (show (0 : Fin 1) ∈ (vecDims N E wf).scatterDimsToOperandDims from List.mem_singleton.mpr rfl)]
  have hsi : (vecDims N E wf).siIdx j ⟨List.idxOf (0 : Fin 1) (vecDims N E wf).scatterDimsToOperandDims,
      List.idxOf_lt_length_iff.2 (List.mem_singleton.mpr rfl)⟩ = ix2 (j 0) 0 := by
    funext b; refine Fin.ext ?_
    match b with
    | ⟨0, _⟩ => rfl
    | ⟨1, _⟩ => rfl
  rw [hsi]
  rfl

theorem vec_window0 (j : (⟨1, ![E]⟩ : Shape).Idx) : (vecDims N E wf).window j 0 = 0 := by
  unfold ScatterDims.window
  rw [dif_neg (show ¬ (0 : Fin 1) ∈ (vecDims N E wf).sKept from
    (show ¬ (0 : Fin 1) ∈ ([] : List (Fin 1)) by decide))]

/-- WHERE AN UPDATE LANDS: update e lands on operand v exactly when the index column holds v at e. -/
theorem vec_lands_iff (j : (⟨1, ![E]⟩ : Shape).Idx) (idx : IVec ⟨2, ![E, 1]⟩ w) (i : (⟨1, ![N]⟩ : Shape).Idx) :
    (vecDims N E wf).resultIdx? j idx = some i ↔ (idx (ix2 (j 0) 0)).toInt = ((i 0).val : Int) := by
  have hi0 : (i 0).val < N := (i 0).isLt
  have hs0 : (⟨1, ![N]⟩ : Shape).size 0 = N := rfl
  unfold ScatterDims.resultIdx?
  split
  · rename_i h
    have h0 := h 0
    rw [vec_start0, vec_window0] at h0
    rw [Option.some.injEq]
    constructor
    · intro he
      have e0 := congrArg (fun f => (f 0).val) he
      simp only [vec_start0, vec_window0] at e0
      omega
    · intro e0
      funext a
      refine Fin.ext ?_
      match a with
      | ⟨0, _⟩ =>
        show ((vecDims N E wf).start j idx 0 + ((vecDims N E wf).window j 0 : Int)).toNat = (i 0).val
        rw [vec_start0, vec_window0]; omega
  · rename_i h
    constructor
    · intro he; exact absurd he (by simp)
    · intro e0
      refine absurd (fun a => ?_) h
      match a with
      | ⟨0, _⟩ =>
        show 0 ≤ (vecDims N E wf).start j idx 0 + ((vecDims N E wf).window j 0 : Int) ∧
          (vecDims N E wf).start j idx 0 + ((vecDims N E wf).window j 0 : Int) < ((⟨1, ![N]⟩ : Shape).size 0 : Int)
        rw [vec_start0, vec_window0, hs0]; omega

/-- A rank-1 index set is its one coordinate's range. -/
def idxEquiv1 {n : Nat} : (⟨1, ![n]⟩ : Shape).Idx ≃ Fin n where
  toFun i := i 0
  invFun a := ix1 a
  left_inv i := (eq_ix1 i).symm
  right_inv _ := rfl

/-- THE RANK-1 SCATTER READ AT v: the operand's entry plus the sum of the updates whose row number is v. -/
theorem scatterAdd_vec_apply (x : (⟨1, ![N]⟩ : Shape).Idx → EReal) (idx : IVec ⟨2, ![E, 1]⟩ w)
    (upd : (⟨1, ![E]⟩ : Shape).Idx → EReal) (v : Fin N) :
    Ideal.hostScatterAdd (vecDims N E wf) x idx upd (ix1 v) =
      x (ix1 v) + ∑ e ∈ Finset.univ.filter (fun e : Fin E => (idx (ix2 e 0)).toInt = (v.val : Int)), upd (ix1 e) := by
  unfold Ideal.hostScatterAdd
  congr 1
  rw [Finset.sum_filter, Finset.sum_filter, ← Equiv.sum_comp (idxEquiv1 (n := E)).symm]
  refine Finset.sum_congr rfl fun e _ => ?_
  simp only [vec_lands_iff]
  rfl

/-- The same for ANY dimension numbers of the rank-1 form, stated for the host operation at the extended reals. -/
theorem host_scatterAdd_vec_apply {φ : FTy} (d : ScatterDims ⟨1, ![N]⟩ ⟨2, ![E, 1]⟩ ⟨1, ![E]⟩)
    (h1 : d.updateWindowDims = []) (h2 : d.insertedWindowDims = [0]) (h3 : d.scatterDimsToOperandDims = [0])
    (h4 : d.indexVectorDim = 1) (x : FVec Ideal ⟨1, ![N]⟩ φ) (idx : IVec ⟨2, ![E, 1]⟩ w)
    (upd : FVec Ideal ⟨1, ![E]⟩ φ) (v : Fin N) :
    Host.scatterAdd d x idx upd (ix1 v) =
      x (ix1 v) + ∑ e ∈ Finset.univ.filter (fun e : Fin E => (idx (ix2 e 0)).toInt = (v.val : Int)), upd (ix1 e) := by
  obtain ⟨uw, iw, sd, iv, wf⟩ := d
  dsimp only at h1 h2 h3 h4
  subst h1 h2 h3 h4
  unfold Host.scatterAdd
  rw [Ideal.hostScatterAdd_def]
  exact scatterAdd_vec_apply wf x idx upd v

end Vec

end Cert.ScatterRows

end
-- ==== Proof.LibGatherRows.lean ====
/-
  A gather whose start indices are one column of row numbers, read at an index.

  The start indices have shape [E, 1]: result row e is operand row idx[e, 0], read as a SIGNED integer and clamped
  into [0, N − 1] (a negative number reads row 0, a number past the end reads the last row). For an operand [N, C]
  gathered in whole rows (slice sizes [1, C], the row axis collapsed, the column axis the offset axis) the result at
  (e, k) is the operand at (clamped idx[e, 0], k) (host_gather_rows_apply); for an operand [N] (slice sizes [1]) the
  result at e is the operand at the clamped idx[e, 0] (host_gather_vec_apply). This is what x[idx] lowers to for
  an index vector idx. Both follow from reading the operand index one axis at a time: on the row axis it is the
  clamped start index, on the column axis the result's own column.
-/
import Idealize.ShloMosaic.PureOps
import Idealize.ShloMosaic.Lib.ValueIdx

noncomputable section

namespace Cert.GatherRows

open Idealize.ShloMosaic Idealize.ShloMosaic.ValueIdx

/-- The row a signed row number reads: clamped into [0, N − 1]. -/
def clampRow (N : Nat) (hN : 0 < N) {w : Nat} (b : BitVec w) : Fin N := ⟨min b.toInt.toNat (N - 1), by omega⟩

theorem clampRow_val (N : Nat) (hN : 0 < N) {w : Nat} (b : BitVec w) : (clampRow N hN b).val = min b.toInt.toNat (N - 1) := rfl

/-- A row number already inside [0, N) reads its own row. -/
theorem clampRow_of_toInt (N : Nat) (hN : 0 < N) {w : Nat} (b : BitVec w) (v : Fin N) (h : b.toInt = (v.val : Int)) :
    clampRow N hN b = v := by
  apply Fin.ext
  rw [clampRow_val, h]
  have := v.isLt
  omega

/-! ## Whole rows of width C -/

section Rows
variable {α : Type} {N E C w : Nat}

/-- The dimension numbers of a row gather: operand [N, C], start indices [E, 1], result [E, C]. -/
abbrev rowDims (N E C : Nat) (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

variable (wf : GatherDims.WF ⟨2, ![N, C]⟩ ⟨2, ![E, 1]⟩ ⟨2, ![E, C]⟩ [1] [0] [] [0] [] 1 ![1, C])

/-- The operand index of result (e, k): the clamped row number, and column k. -/
theorem row_operandIdx (hN : 0 < N) (idx : IVec ⟨2, ![E, 1]⟩ w) (e : Fin E) (k : Fin C) :
    (rowDims N E C wf).operandIdx (ix2 e k) idx = ix2 (clampRow N hN (idx (ix2 e 0))) k := by
  funext a
  refine Fin.ext ?_
  match a with
  | ⟨0, _⟩ =>
    show (rowDims N E C wf).start (ix2 e k) idx 0 + (rowDims N E C wf).batchCoord (ix2 e k) 0 + (rowDims N E C wf).offCoord (ix2 e k) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowDims N E C wf).startIndexMap from List.mem_singleton.mpr rfl)]
    have hsi : (rowDims N E C wf).siIdx (ix2 e k) ⟨List.idxOf (0 : Fin 2) (rowDims N E C wf).startIndexMap,
        List.idxOf_lt_length_iff.2 (List.mem_singleton.mpr rfl)⟩ = ix2 e 0 := by
      funext b; refine Fin.ext ?_
      match b with
      | ⟨0, _⟩ => rfl
      | ⟨1, _⟩ => rfl
    rw [hsi]
    rfl
  | ⟨1, _⟩ =>
    show (rowDims N E C wf).start (ix2 e k) idx 1 + (rowDims N E C wf).batchCoord (ix2 e k) 1 + (rowDims N E C wf).offCoord (ix2 e k) 1 = k.val
    rw [GatherDims.batchCoord_eq_zero _ _ _ List.not_mem_nil]
    unfold GatherDims.start
    rw [dif_neg (show ¬ (1 : Fin 2) ∈ (rowDims N E C wf).startIndexMap from (show ¬ (1 : Fin 2) ∈ ([0] : List (Fin 2)) by decide))]
    unfold GatherDims.offCoord
    rw [dif_pos (show (1 : Fin 2) ∈ (rowDims N E C wf).sKept from
      (GatherDims.mem_sKept _ _).mpr ⟨(show ¬ (1 : Fin 2) ∈ ([0] : List (Fin 2)) by decide), List.not_mem_nil⟩)]
    simp only [Nat.zero_add]
    rfl

/-- THE ROW GATHER READ AT (e, k): the operand at (clamped idx[e, 0], k), for ANY dimension numbers of a row gather (a
    program's own record: its seven fields are these by unfolding). -/
theorem host_gather_rows_apply (hN : 0 < N) (d : GatherDims ⟨2, ![N, C]⟩ ⟨2, ![E, 1]⟩ ⟨2, ![E, C]⟩)
    (h1 : d.offsetDims = [1]) (h2 : d.collapsedSliceDims = [0]) (h3 : d.operandBatchingDims = [])
    (h4 : d.startIndicesBatchingDims = []) (h5 : d.startIndexMap = [0]) (h6 : d.indexVectorDim = 1)
    (h7 : d.sliceSizes = ![1, C]) (x : (⟨2, ![N, C]⟩ : Shape).Idx → α) (idx : IVec ⟨2, ![E, 1]⟩ w) (e : Fin E) (k : Fin C) :
    Host.gather d x idx (ix2 e k) = x (ix2 (clampRow N hN (idx (ix2 e 0))) k) := by
  obtain ⟨od, cs, ob, sb, sm, iv, ss, wf⟩ := d
  dsimp only at h1 h2 h3 h4 h5 h6 h7
  subst h1 h2 h3 h4 h5 h6 h7
  unfold Host.gather
  exact congrArg x (row_operandIdx wf hN idx e k)

end Rows

/-! ## Scalars -/

section Vec
variable {α : Type} {N E w : Nat}

/-- The dimension numbers of the rank-1 form: operand [N], start indices [E, 1], result [E]. -/
abbrev vecDims (N E : Nat) (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

variable (wf : GatherDims.WF ⟨1, ![N]⟩ ⟨2, ![E, 1]⟩ ⟨1, ![E]⟩ [] [0] [] [0] [] 1 ![1])

/-- The operand index of result e: the clamped row number. -/
theorem vec_operandIdx (hN : 0 < N) (idx : IVec ⟨2, ![E, 1]⟩ w) (e : Fin E) :
    (vecDims N E wf).operandIdx (ix1 e) idx = ix1 (clampRow N hN (idx (ix2 e 0))) := by
  funext a
  obtain rfl : a = 0 := Subsingleton.elim _ _
  refine Fin.ext ?_
  show (vecDims N E wf).start (ix1 e) idx 0 + (vecDims N E wf).batchCoord (ix1 e) 0 + (vecDims N E wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (vecDims N E wf).startIndexMap from List.mem_singleton.mpr rfl)]
  have hsi : (vecDims N E wf).siIdx (ix1 e) ⟨List.idxOf (0 : Fin 1) (vecDims N E wf).startIndexMap,
      List.idxOf_lt_length_iff.2 (List.mem_singleton.mpr rfl)⟩ = ix2 e 0 := by
    funext b; refine Fin.ext ?_
    match b with
    | ⟨0, _⟩ => rfl
    | ⟨1, _⟩ => rfl
  rw [hsi]
  rfl

/-- THE RANK-1 GATHER READ AT e: the operand at the clamped idx[e, 0], for ANY dimension numbers of that form. -/
theorem host_gather_vec_apply (hN : 0 < N) (d : GatherDims ⟨1, ![N]⟩ ⟨2, ![E, 1]⟩ ⟨1, ![E]⟩)
    (h1 : d.offsetDims = []) (h2 : d.collapsedSliceDims = [0]) (h3 : d.operandBatchingDims = [])
    (h4 : d.startIndicesBatchingDims = []) (h5 : d.startIndexMap = [0]) (h6 : d.indexVectorDim = 1)
    (h7 : d.sliceSizes = ![1]) (x : (⟨1, ![N]⟩ : Shape).Idx → α) (idx : IVec ⟨2, ![E, 1]⟩ w) (e : Fin E) :
    Host.gather d x idx (ix1 e) = x (ix1 (clampRow N hN (idx (ix2 e 0)))) := by
  obtain ⟨od, cs, ob, sb, sm, iv, ss, wf⟩ := d
  dsimp only at h1 h2 h3 h4 h5 h6 h7
  subst h1 h2 h3 h4 h5 h6 h7
  unfold Host.gather
  exact congrArg x (vec_operandIdx wf hN idx e)

end Vec

end Cert.GatherRows

end
-- ==== Proof.LibRealSums.lean ====
/-
  Finite sums of real numbers inside the extended reals.

  Multiplication does not distribute over addition on the extended reals (⊤ + ⊥ is ⊥, so (⊤ + ⊥) · (−1) is ⊤ while
  ⊤ · (−1) + ⊥ · (−1) is ⊥), but it does on the reals embedded in them. An extended real is called real here when it
  is the image of a real number. Reals are closed under finite sums and under products, a finite sum of reals is
  the image of the real sum, and a real factor distributes over a finite sum of reals (sum_mul_of_isReal).

  The last lemma is the law a message-passing aggregation needs: scaling every message by the receiving node's own
  factor before summing, or scaling the sum afterwards, gives the same number, provided the messages and the
  factor are real (scaled_sum_eq).
-/
import Mathlib.Data.EReal.Basic
import Mathlib.Data.EReal.Operations
import Mathlib.Algebra.BigOperators.Ring.Finset

open scoped BigOperators

namespace Cert.RealSums

/-- An extended real that is the image of a real number. -/
def IsReal (x : EReal) : Prop := ∃ r : ℝ, x = (r : EReal)

theorem isReal_coe (r : ℝ) : IsReal (r : EReal) := ⟨r, rfl⟩

theorem isReal_zero : IsReal 0 := ⟨0, rfl⟩

theorem isReal_one : IsReal 1 := ⟨1, rfl⟩

theorem IsReal.mul {x y : EReal} (hx : IsReal x) (hy : IsReal y) : IsReal (x * y) := by
  obtain ⟨a, rfl⟩ := hx
  obtain ⟨b, rfl⟩ := hy
  exact ⟨a * b, (EReal.coe_mul a b).symm⟩

theorem IsReal.add {x y : EReal} (hx : IsReal x) (hy : IsReal y) : IsReal (x + y) := by
  obtain ⟨a, rfl⟩ := hx
  obtain ⟨b, rfl⟩ := hy
  exact ⟨a + b, (EReal.coe_add a b).symm⟩

/-- A real extended real is the image of its own real part. -/
theorem IsReal.eq_coe_toReal {x : EReal} (hx : IsReal x) : x = ((x.toReal : ℝ) : EReal) := by
  obtain ⟨a, rfl⟩ := hx
  rw [EReal.toReal_coe]

/-- The image of a finite real sum is the sum of the images. -/
theorem coe_sum {ι : Type*} (s : Finset ι) (f : ι → ℝ) :
    ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

/-- A finite sum of reals is real. -/
theorem isReal_sum {ι : Type*} (s : Finset ι) (a : ι → EReal) (ha : ∀ i ∈ s, IsReal (a i)) : IsReal (∑ i ∈ s, a i) := by
  refine ⟨∑ i ∈ s, (a i).toReal, ?_⟩
  rw [← coe_sum]
  exact Finset.sum_congr rfl fun i hi => (ha i hi).eq_coe_toReal

/-- A real factor distributes over a finite sum of reals. -/
theorem sum_mul_of_isReal {ι : Type*} (s : Finset ι) (a : ι → EReal) (k : EReal)
    (ha : ∀ i ∈ s, IsReal (a i)) (hk : IsReal k) : (∑ i ∈ s, a i) * k = ∑ i ∈ s, a i * k := by
  obtain ⟨r, rfl⟩ := hk
  have h1 : ∑ i ∈ s, a i = ((∑ i ∈ s, (a i).toReal : ℝ) : EReal) := by
    rw [← coe_sum]
    exact Finset.sum_congr rfl fun i hi => (ha i hi).eq_coe_toReal
  have h2 : ∑ i ∈ s, a i * (r : EReal) = ((∑ i ∈ s, (a i).toReal * r : ℝ) : EReal) := by
    rw [← coe_sum]
    refine Finset.sum_congr rfl fun i hi => ?_
    rw [EReal.coe_mul, ← (ha i hi).eq_coe_toReal]
  rw [h1, h2, ← EReal.coe_mul, Finset.sum_mul]

/-- SCALING AFTER OR BEFORE THE SUM. Over a finite set of messages e, each a real value h e times a real sender factor
    s e: the sum scaled by the receiver's real factor k is the sum of the messages each scaled by s e · t e, whenever t e
    is k on the set. (Both sums start from zero, as an accumulating scatter into a zero array does.) -/
theorem scaled_sum_eq {ι : Type*} (S : Finset ι) (h s t : ι → EReal) (k : EReal)
    (hh : ∀ e ∈ S, IsReal (h e)) (hs : ∀ e ∈ S, IsReal (s e)) (ht : ∀ e ∈ S, t e = k) (hk : IsReal k) :
    (0 + ∑ e ∈ S, h e * s e) * k = 0 + ∑ e ∈ S, h e * (s e * t e) := by
  rw [zero_add, zero_add, sum_mul_of_isReal S (fun e => h e * s e) k (fun e he => (hh e he).mul (hs e he)) hk]
  refine Finset.sum_congr rfl fun e he => ?_
  obtain ⟨a, ha⟩ := hh e he
  obtain ⟨b, hb⟩ := hs e he
  obtain ⟨r, hr⟩ := hk
  show h e * s e * k = h e * (s e * t e)
  rw [ht e he, ha, hb, hr, ← EReal.coe_mul, ← EReal.coe_mul, ← EReal.coe_mul, ← EReal.coe_mul, mul_assoc]

end Cert.RealSums
-- ==== Proof.Bridge.lean ====
/-
  The two programs' results are one function of the arguments.

  Write D r for the node factor of node r (val_main_v14), P (r, k) for the product entry Σ_j x (r, j) · W1 (j, k)
  (val_main_v30), into n for the set of edges (self loops included) whose destination entry, read as a signed
  number, is n, and src e, dst e for the rows the two gathers read for edge e (the wrapped number clamped into
  [0, 100000)). Then at (n, k)
    the reference aggregates   0 + Σ_{e ∈ into n} P (src e, k) · (D (src e) · D (dst e))          (agg_ref),
    the kernel aggregates      0 + Σ_{e ∈ into n} P (src e, k) · D (src e),  then scales by D n   (agg_ker).
  For e ∈ into n the destination entry is n itself, which is not negative, so it is not wrapped and not clamped:
  dst e = n (dst_of_mem). Every D r is real — the degree is a finite sum of ones, and its reciprocal square root is
  taken only where the degree is positive — and every P (r, k) is real when x and W1 hold reals. So the real factor
  D n moves across the sum (RealSums.scaled_sum_eq) and the two aggregates agree; the bias, the cut at zero and the
  second linear layer are then the same operations of equal arrays (relu_eq, linear_eq).
-/
import proofs.«133385_j39960375722198_2_alg».proof.Proof.KernelBoundary
import proofs.«133385_j39960375722198_2_alg».proof.Proof.LibScatterRows
import proofs.«133385_j39960375722198_2_alg».proof.Proof.LibGatherRows
import proofs.«133385_j39960375722198_2_alg».proof.Proof.LibPlainDot
import proofs.«133385_j39960375722198_2_alg».proof.Proof.LibRealSums
import Idealize.ShloMosaic.Lib.IdealHost
import Idealize.ShloMosaic.Lib.Pipeline.Value

set_option maxRecDepth 16384

noncomputable section

open scoped BigOperators

namespace Cert.Bridge

open Cert.ReferenceIdeal Cert.ReferenceIdeal.ReadP Cert.RealSums Cert.GatherRows
open Idealize.ShloMosaic Idealize.ShloMosaic.ValueIdx

/-! ## Small facts about the words -/

theorem lt_of_cmp_ogt (a b : EReal) (h : Ideal.cmp .ogt a b = 1#1) : b < a := by
  by_contra hn
  have h0 : Ideal.cmp .ogt a b = 0#1 := by
    unfold Ideal.cmp
    simp [hn]
  rw [h0] at h
  exact absurd h (by decide)

/-- A row number that is not negative is not wrapped. -/
theorem wrap_of_nonneg (b : BitVec 32) (h : 0 ≤ b.toInt) :
    Scalar.select (IntOp.cmpi .slt b 0#32) (IntOp.addi b 100000#32) b = b := by
  have h0 : IntOp.cmpi .slt b 0#32 = 0#1 := by
    unfold IntOp.cmpi
    have : b.slt 0#32 = false := by
      rw [BitVec.slt]
      simp only [decide_eq_false_iff_not, not_lt]
      exact h
    simp [this]
  rw [h0]
  exact select_zero _ _

variable (x0 : FVec Ideal S100000x256 .f32) (x1 : IVec S2x3200000 32) (x2 : FVec Ideal S256x3 .f32) (x3 : FVec Ideal S3 .f32)
  (x4 : FVec Ideal S3x7 .f32) (x5 : FVec Ideal S7 .f32)

/-! ## The edges into a node, and the rows the gathers read -/

/-- The edges whose destination entry, read signed, is n. -/
def into (n : Fin 100000) : Finset (Fin 3300000) :=
  Finset.univ.filter fun e => (val_main_v42 (F := Ideal) x1 (ix2 e 0)).toInt = (n.val : Int)

/-- The row the source gathers read for edge e. -/
def src (e : Fin 3300000) : Fin 100000 := clampRow 100000 (by decide) (val_main_v36 (F := Ideal) x1 (ix2 e 0))

/-- The row the reference's destination gather reads for edge e. -/
def dst (e : Fin 3300000) : Fin 100000 := clampRow 100000 (by decide) (val_main_v27 (F := Ideal) x1 (ix2 e 0))

theorem v20_eq_v36 : val_main_v20 (F := Ideal) x1 = val_main_v36 (F := Ideal) x1 := rfl

theorem v42_at (e : Fin 3300000) : val_main_v42 (F := Ideal) x1 (ix2 e 0) = val_main_v6 (F := Ideal) x1 (ix1 e) := by
  rw [val_main_v42_apply]
  exact congrArg _ (funext fun a => by match a with | ⟨0, _⟩ => rfl)

theorem v27_at (e : Fin 3300000) : val_main_v27 (F := Ideal) x1 (ix2 e 0)
    = Scalar.select (IntOp.cmpi .slt (val_main_v6 (F := Ideal) x1 (ix1 e)) 0#32) (IntOp.addi (val_main_v6 (F := Ideal) x1 (ix1 e)) 100000#32)
        (val_main_v6 (F := Ideal) x1 (ix1 e)) := by
  have hi : idx_main_v27 (ix2 e (0 : Fin 1)) = ix1 e := funext fun a => by match a with | ⟨0, _⟩ => rfl
  rw [val_main_v27_apply, hi, val_main_v26_apply, val_main_v23_apply, val_main_v25_apply, val_main_v22_apply, val_main_v24_apply,
    val_main_c_4_apply, val_main_c_5_apply]

/-- An edge into n reads n's own row in the destination gather. -/
theorem dst_of_mem (n : Fin 100000) (e : Fin 3300000) (he : e ∈ into x1 n) : dst x1 e = n := by
  have h := (Finset.mem_filter.mp he).2
  rw [v42_at] at h
  unfold dst
  rw [v27_at, wrap_of_nonneg _ (by rw [h]; exact Int.natCast_nonneg _)]
  exact clampRow_of_toInt 100000 (by decide) _ n h

/-! ## The stages at an index -/

theorem v41_at (i : S100000x3.Idx) : val_main_v41 (F := Ideal) i = 0 := by
  rw [val_main_v41_apply, val_main_cst_8_apply]
  exact Ideal.ofBits_zero_f32

theorem v30_at (r : Fin 100000) (k : Fin 3) : val_main_v30 (F := Ideal) x0 x2 (ix2 r k) = ∑ j : Fin 256, x0 (ix2 r j) * x2 (ix2 j k) := by
  unfold val_main_v30
  simp only [Host.dotGeneral]
  exact Cert.PlainDot.dotGeneral_apply dot_S100000x256_S256x3_S100000x3_1_0_0_1_n_n rfl rfl rfl rfl rfl rfl none _ x0 x2 r k

theorem v37_at (e : Fin 3300000) (k : Fin 3) :
    val_main_v37 (F := Ideal) x0 x1 x2 (ix2 e k) = val_main_v30 (F := Ideal) x0 x2 (ix2 (src x1 e) k) := by
  unfold val_main_v37
  exact host_gather_rows_apply (by decide) gather_S100000x3_S3300000x1_S3300000x3_1_0_n_n_0_1_13 rfl rfl rfl rfl rfl rfl rfl _ _ e k

theorem v21_at (e : Fin 3300000) : val_main_v21 (F := Ideal) x1 (ix1 e) = val_main_v14 (F := Ideal) x1 (ix1 (src x1 e)) := by
  unfold val_main_v21
  rw [v20_eq_v36]
  exact host_gather_vec_apply (by decide) gather_S100000_S3300000x1_S3300000_n_0_n_n_0_1_1 rfl rfl rfl rfl rfl rfl rfl _ _ e

theorem v28_at (e : Fin 3300000) : val_main_v28 (F := Ideal) x1 (ix1 e) = val_main_v14 (F := Ideal) x1 (ix1 (dst x1 e)) := by
  unfold val_main_v28
  exact host_gather_vec_apply (by decide) gather_S100000_S3300000x1_S3300000_n_0_n_n_0_1_1 rfl rfl rfl rfl rfl rfl rfl _ _ e

theorem v39_at (e : Fin 3300000) (k : Fin 3) :
    val_main_v39 (F := Ideal) x1 (ix2 e k) = val_main_v14 (F := Ideal) x1 (ix1 (src x1 e)) * val_main_v14 (F := Ideal) x1 (ix1 (dst x1 e)) := by
  have hi : idx_main_v38 (idx_main_v39 (ix2 e k)) = ix1 e := funext fun a => by match a with | ⟨0, _⟩ => rfl
  rw [val_main_v39_apply, val_main_v38_apply, hi, val_main_v29_apply, v21_at, v28_at]
  rfl

/-- THE REFERENCE'S AGGREGATE at (n, k). -/
theorem agg_ref (n : Fin 100000) (k : Fin 3) : val_main_v43 (F := Ideal) x0 x1 x2 (ix2 n k)
    = 0 + ∑ e ∈ into x1 n, val_main_v30 (F := Ideal) x0 x2 (ix2 (src x1 e) k)
        * (val_main_v14 (F := Ideal) x1 (ix1 (src x1 e)) * val_main_v14 (F := Ideal) x1 (ix1 (dst x1 e))) := by
  unfold val_main_v43
  rw [Cert.ScatterRows.host_scatterAdd_rows_apply scatter_S100000x3_S3300000x1_S3300000x3_1_0_0_1 rfl rfl rfl rfl _ _ _ n k, v41_at]
  refine congrArg (0 + ·) (Finset.sum_congr rfl fun e _ => ?_)
  rw [val_main_v40_apply, v37_at, v39_at]
  rfl

/-- The node factor column at (r, 0) is the node factor of r. -/
theorem dinvCol_at (r : Fin 100000) : Cert.KernelIdeal.Boundary.dinvCol x1 (ix2 r 0) = val_main_v14 (F := Ideal) x1 (ix1 r) := by
  unfold Cert.KernelIdeal.Boundary.dinvCol
  exact shapeCast_apply _ _ (ix2 r 0) (ix1 r) (by
    rw [Shape.rowMajor_val_two, Shape.rowMajor_val_one]
    show r.val = r.val * 1 + 0
    omega)

/-- THE KERNEL'S AGGREGATE at (n, k), before the scaling by the receiving node's factor. -/
theorem agg_ker (n : Fin 100000) (k : Fin 3) : Cert.KernelIdeal.Boundary.aggK x0 x1 x2 (ix2 n k)
    = 0 + ∑ e ∈ into x1 n, val_main_v30 (F := Ideal) x0 x2 (ix2 (src x1 e) k) * val_main_v14 (F := Ideal) x1 (ix1 (src x1 e)) := by
  unfold Cert.KernelIdeal.Boundary.aggK
  rw [Cert.ScatterRows.host_scatterAdd_rows_apply Cert.KernelIdeal.scatter_S100000x3_S3300000x1_S3300000x3_1_0_0_1 rfl rfl rfl rfl _ _ _ n k, v41_at]
  refine congrArg (0 + ·) (Finset.sum_congr rfl fun e _ => ?_)
  rw [host_gather_rows_apply (by decide) Cert.KernelIdeal.gather_S100000x3_S3300000x1_S3300000x3_1_0_n_n_0_1_13 rfl rfl rfl rfl rfl rfl rfl _ _ e k]
  show Cert.KernelIdeal.Region0.scaledRows x0 x2 (Cert.KernelIdeal.Boundary.dinvCol x1) (ix2 (src x1 e) k) = _
  rw [Cert.KernelIdeal.Region0.scaledRows_apply, dinvCol_at, v30_at]

/-! ## Every factor is real -/

theorem isReal_deg (r : Fin 100000) : IsReal (val_main_v10 (F := Ideal) x1 (ix1 r)) := by
  unfold val_main_v10
  rw [Cert.ScatterRows.host_scatterAdd_vec_apply scatter_S100000_S3300000x1_S3300000_n_0_0_1 rfl rfl rfl rfl _ _ _ r]
  refine IsReal.add ?_ (isReal_sum _ _ fun e _ => ?_)
  · rw [val_main_v8_apply, val_main_cst_0_apply]
    show IsReal (Ideal.ofBits .f32 0x00000000#32)
    rw [Ideal.ofBits_zero_f32]; exact isReal_zero
  · rw [val_main_v7_apply, val_main_cst_apply]
    show IsReal (Ideal.ofBits .f32 0x3F800000#32)
    rw [Ideal.ofBits_one_f32]; exact isReal_one

theorem isReal_dinv (r : Fin 100000) : IsReal (val_main_v14 (F := Ideal) x1 (ix1 r)) := by
  rw [val_main_v14_apply]
  by_cases h : val_main_v12 (F := Ideal) x1 (ix1 r) = 1#1
  · rw [h, select_one, val_main_v13_apply]
    obtain ⟨d, hd⟩ := isReal_deg x1 r
    rw [val_main_v12_apply, hd, val_main_v11_apply, val_main_cst_1_apply] at h
    have hlt : (Ideal.ofBits .f32 0x00000000#32 : EReal) < (d : EReal) := lt_of_cmp_ogt _ _ h
    rw [Ideal.ofBits_zero_f32] at hlt
    have hpos : (0 : ℝ) < d := by exact_mod_cast hlt
    rw [hd, Ideal.hostUnary_rsqrt_def, Ideal.rsqrt_coe, if_neg (not_lt.mpr hpos.le), if_neg hpos.ne']
    exact isReal_coe _
  · rw [eq_zero_of_ne_one h, select_zero, val_main_call0_v1_apply, val_main_call0_v0_apply, val_main_cst_2_apply]
    show IsReal (Ideal.ofBits .f32 0x00000000#32)
    rw [Ideal.ofBits_zero_f32]; exact isReal_zero

theorem isReal_prod (hx0 : ∀ i, IsReal (x0 i)) (hx2 : ∀ i, IsReal (x2 i)) (r : Fin 100000) (k : Fin 3) :
    IsReal (val_main_v30 (F := Ideal) x0 x2 (ix2 r k)) := by
  rw [v30_at]
  exact isReal_sum _ _ fun j _ => (hx0 _).mul (hx2 _)

/-! ## The results -/

/-- THE FIRST RESULT: the kernel's and the reference's are one array, when x and W1 hold reals. -/
theorem relu_eq (hx0 : ∀ i, IsReal (x0 i)) (hx2 : ∀ i, IsReal (x2 i)) :
    Cert.KernelIdeal.Region1.reluRows (Cert.KernelIdeal.Boundary.aggK x0 x1 x2) (Cert.KernelIdeal.Boundary.dinvCol x1) x3
      = val_main_v47 (F := Ideal) x0 x1 x2 x3 := by
  funext i
  obtain ⟨n, k, rfl⟩ : ∃ (n : Fin 100000) (k : Fin 3), i = ix2 n k := ⟨i 0, i 1, eq_ix2 i⟩
  have h45 : val_main_v45 (F := Ideal) x3 (ix2 n k) = x3 (ix1 k) := by
    have hi : idx_main_v44 (idx_main_v45 (ix2 n k)) = ix1 k := funext fun a => by match a with | ⟨0, _⟩ => rfl
    rw [val_main_v45_apply, val_main_v44_apply, hi]
  have hz : val_main_call1_v0 (F := Ideal) (ix2 n k) = 0 := by
    rw [val_main_call1_v0_apply, val_main_call1_cst_apply]
    exact Ideal.ofBits_zero_f32
  rw [Cert.KernelIdeal.Region1.reluRows_apply, val_main_v47_apply, val_main_v46_apply, h45, hz, agg_ker, agg_ref, dinvCol_at]
  show max (_ + x3 (ix1 k)) 0 = max (_ + x3 (ix1 k)) 0
  rw [scaled_sum_eq (into x1 n) (fun e => val_main_v30 (F := Ideal) x0 x2 (ix2 (src x1 e) k))
    (fun e => val_main_v14 (F := Ideal) x1 (ix1 (src x1 e))) (fun e => val_main_v14 (F := Ideal) x1 (ix1 (dst x1 e)))
    (val_main_v14 (F := Ideal) x1 (ix1 n)) (fun e _ => isReal_prod x0 x2 hx0 hx2 _ _) (fun e _ => isReal_dinv x1 _)
    (fun e he => by rw [dst_of_mem x1 n e he]) (isReal_dinv x1 n)]

/-- THE SECOND RESULT: the same linear layer of equal arrays. -/
theorem linear_eq (H : FVec Ideal S100000x3 .f32) (hH : H = val_main_v47 (F := Ideal) x0 x1 x2 x3) :
    Cert.KernelIdeal.Region1.linearRows H x4 x5 = val_main_v51 (F := Ideal) x0 x1 x2 x3 x4 x5 := by
  subst hH
  funext i
  obtain ⟨n, j, rfl⟩ : ∃ (n : Fin 100000) (j : Fin 7), i = ix2 n j := ⟨i 0, i 1, eq_ix2 i⟩
  have h48 : val_main_v48 (F := Ideal) x0 x1 x2 x3 x4 (ix2 n j) = ∑ k : Fin 3, val_main_v47 (F := Ideal) x0 x1 x2 x3 (ix2 n k) * x4 (ix2 k j) := by
    unfold val_main_v48
    simp only [Host.dotGeneral]
    exact Cert.PlainDot.dotGeneral_apply dot_S100000x3_S3x7_S100000x7_1_0_0_1_n_n rfl rfl rfl rfl rfl rfl none _ _ x4 n j
  have h50 : val_main_v50 (F := Ideal) x5 (ix2 n j) = x5 (ix1 j) := by
    have hi : idx_main_v49 (idx_main_v50 (ix2 n j)) = ix1 j := funext fun a => by match a with | ⟨0, _⟩ => rfl
    rw [val_main_v50_apply, val_main_v49_apply, hi]
  rw [Cert.KernelIdeal.Region1.linearRows_apply, val_main_v51_apply, h48, h50]
  rfl

end Cert.Bridge

end
-- ==== Proof.Finite.lean ====
/-
  What the precondition gives: the feature matrix and the first weight matrix hold real numbers.

  The precondition is the conjunction, over the five float arguments, of "every entry's absolute value is below +∞"
  (a comparison against the word 0x7F800000, reduced by and over the whole array). On the extended reals |x| < ⊤ fails
  exactly at x = ⊤ and x = ⊥, so an entry that passes is the image of a real number. Only the first two conjuncts are
  opened: the feature matrix x [100000, 256] and the weight matrix W1 [256, 3] are the operands whose products are
  summed and then rescaled, which is where distributivity is used.
-/
import proofs.«133385_j39960375722198_2_alg».proof.Pre_finite_inputs
import proofs.«133385_j39960375722198_2_alg».proof.Proof.Gen.Pre_finite_inputs
import proofs.«133385_j39960375722198_2_alg».proof.Proof.LibRealSums
import Idealize.ShloMosaic.Lib.ReduceAll
import Idealize.ShloMosaic.Lib.Affine
import Idealize.ShloMosaic.Lib.ValueIdx
import Idealize.ShloMosaic.PureOps.Ideal.Laws

noncomputable section

namespace Cert.Pre_finite_inputs.Finite

open Cert.Pre_finite_inputs Cert.Pre_finite_inputs.Gen Cert.RealSums
open Idealize.ShloMosaic Idealize.ShloMosaic.ValueIdx

instance : Subsingleton S_.Idx := ⟨fun a b => funext fun d => d.elim0⟩

/-- The word 0x7F800000 is +∞. -/
theorem ofBits_inf : Ideal.ofBits .f32 0x7F800000#32 = ⊤ := by simp [Ideal.ofBits, Ideal.ieee]

/-- An extended real whose absolute value compares below +∞ is real. -/
theorem isReal_of_abs_lt (x : EReal) (h : Ideal.cmp .olt (max x (-x)) (Ideal.ofBits .f32 0x7F800000#32) = 1#1) : IsReal x := by
  rw [ofBits_inf] at h
  induction x using EReal.rec with
  | bot => simp [Ideal.cmp] at h
  | coe r => exact ⟨r, rfl⟩
  | top => simp [Ideal.cmp] at h

/-- Under the precondition every entry of the feature matrix and of the first weight matrix is real. -/
theorem real_x_W1 (a0 : FVec Ideal S100000x256 .f32) (a1 : IVec S2x3200000 32) (a2 : FVec Ideal S256x3 .f32) (a3 : FVec Ideal S3 .f32)
    (a4 : FVec Ideal S3x7 .f32) (a5 : FVec Ideal S7 .f32) (h : fn (F := Ideal) a0 a1 a2 a3 a4 a5 = fun _ => 1#1) :
    (∀ i, IsReal (a0 i)) ∧ (∀ i, IsReal (a2 i)) := by
  have h0 := congrFun h ix0
  dsimp only [fn, fn_part1] at h0
  have h1 := (IntOp.andi_eq_one.mp h0).1
  have h2 := (IntOp.andi_eq_one.mp h1).1
  have h3 := (IntOp.andi_eq_one.mp h2).1
  obtain ⟨hx, hw⟩ := IntOp.andi_eq_one.mp h3
  refine ⟨fun i => ?_, fun i => ?_⟩
  · exact isReal_of_abs_lt _ (Host.reduce_andi_all _ _ _ _ ix0 hx i)
  · exact isReal_of_abs_lt _ (Host.reduce_andi_all _ _ _ _ ix0 hw i)

end Cert.Pre_finite_inputs.Finite

end
-- ==== Proof.lean ====
/-
  A two-layer graph network on 100000 nodes and 3200000 edges: a graph convolution with symmetric normalisation
  (256 features to 3), a cut at zero, a linear layer (3 to 7).

  With self loops appended to the edge list, deg n the number of edges into node n and D n = deg n ^ (−1/2) where
  deg n > 0 (else 0), the reference computes, for every node n and feature k,
      h (n, k) = max (Σ_{e into n} P (src e, k) · (D (src e) · D (dst e)) + b1 k) 0,   P = x · W1,
      z (n, j) = Σ_k h (n, k) · W2 (k, j) + b2 j.
  The kernel computes P · D row by row in a first pipelined region, gathers and scatters those rows on the host,
  and in a second region scales the aggregate by D n, adds the bias, cuts at zero and applies the linear layer:
      h (n, k) = max ((Σ_{e into n} P (src e, k) · D (src e)) · D n + b1 k) 0.
  An edge into n has dst e = n, so the two differ by moving the factor D n across a finite sum. On the extended
  reals that needs every term real: P is real because the precondition makes x and W1 real, and D is real by
  construction. Rounding to bf16 on the way into the matrix unit is the identity on the extended reals, and no
  operation of the kernel was rewritten by the idealisation, so the preservation claim is trivial.

  The three frames: the two kernel programs by their region-by-region runs, the reference by its host run with the
  results dropped. The value claim: both runs, with the kernel's two result arrays read through the regions and the
  host stretches (KernelBoundary) and shown equal to the reference's stages (Bridge).
-/
import proofs.«133385_j39960375722198_2_alg».proof.Defs
import proofs.«133385_j39960375722198_2_alg».proof.Proof.Gen.Kernel
import proofs.«133385_j39960375722198_2_alg».proof.Proof.Gen.Kernel.Skeleton
import proofs.«133385_j39960375722198_2_alg».proof.Proof.Gen.Kernel.Launch
import proofs.«133385_j39960375722198_2_alg».proof.Proof.Gen.Kernel.Points
import proofs.«133385_j39960375722198_2_alg».proof.Proof.Gen.Kernel.Frame
import proofs.«133385_j39960375722198_2_alg».proof.Proof.Gen.KernelIdeal
import proofs.«133385_j39960375722198_2_alg».proof.Proof.Gen.KernelIdeal.Skeleton
import proofs.«133385_j39960375722198_2_alg».proof.Proof.Gen.KernelIdeal.Launch
import proofs.«133385_j39960375722198_2_alg».proof.Proof.Gen.KernelIdeal.Points
import proofs.«133385_j39960375722198_2_alg».proof.Proof.Gen.KernelIdeal.Frame
import proofs.«133385_j39960375722198_2_alg».proof.Proof.Gen.ReferenceIdeal
import proofs.«133385_j39960375722198_2_alg».proof.Proof.RefRunP
import proofs.«133385_j39960375722198_2_alg».proof.Proof.RefReadP
import proofs.«133385_j39960375722198_2_alg».proof.Proof.Gen.Pre_finite_inputs
import proofs.«133385_j39960375722198_2_alg».proof.Proof.KernelRun
import proofs.«133385_j39960375722198_2_alg».proof.Proof.KernelBoundary
import proofs.«133385_j39960375722198_2_alg».proof.Proof.Bridge
import proofs.«133385_j39960375722198_2_alg».proof.Proof.Finite
import Idealize.ShloMosaic.Adequacy
import Idealize.ShloMosaic.Init

noncomputable section

namespace Cert.Proof

open Idealize.ShloMosaic Idealize.SL.Sem

/-- The kernel as printed runs and leaves its arguments as launched. -/
theorem frame_k : Cert.frame_Kernel := fun m ρ _ => Cert.Kernel.Gen.frame m ρ

/-- So does its idealisation. -/
theorem frame_ki : Cert.frame_KernelIdeal := fun m ρ _ => Cert.KernelIdeal.Gen.frame m ρ

/-- The reference runs and leaves its arguments as launched: its host run with the two results dropped. -/
theorem frame_ri : Cert.frame_ReferenceIdeal := fun m ρ _ =>
  (θ_run Cert.ReferenceIdeal.defs _ _).mono (fun _ h c => (h c).2.2) (Cert.ReferenceIdeal.ValueP.run (F := Ideal) m ρ)

/-- Both idealised programs run, and end with equal results: the kernel's arrays after its two regions are the
    reference's two stages, entry by entry. -/
theorem algebraic : Cert.algebraic_KernelIdeal_ReferenceIdeal := by
  intro m ρ m' ρ' hpre hagree
  refine ⟨fun c => Cert.KernelIdeal.Named.out0 m ρ c, fun c => Cert.KernelIdeal.Named.out1 m ρ c,
    Cert.KernelIdeal.Named.run (F := Ideal) m ρ, ?_⟩
  refine (θ_run Cert.ReferenceIdeal.defs _ _).mono (fun _ h c => ?_) (Cert.ReferenceIdeal.ValueP.run (F := Ideal) m' ρ')
  obtain ⟨h47, h51, hargs⟩ := h c
  obtain ⟨a0, a1, a2, a3, a4, a5⟩ := hagree c
  obtain ⟨hx0, hx2⟩ := Cert.Pre_finite_inputs.Finite.real_x_W1 _ _ _ _ _ _ (hpre c)
  have e0 : Cert.KernelIdeal.Named.out0 m ρ c = Cert.ReferenceIdeal.ValueP.res_main_v47 m' c := by
    rw [Cert.KernelIdeal.Boundary.out0_eq, Cert.ReferenceIdeal.ReadP.val_main_v47_eq, a0, a1, a2, a3]
    exact Cert.Bridge.relu_eq _ _ _ _ hx0 hx2
  have e1 : Cert.KernelIdeal.Named.out1 m ρ c = Cert.ReferenceIdeal.ValueP.res_main_v51 m' c := by
    rw [Cert.KernelIdeal.Boundary.out1_eq, Cert.ReferenceIdeal.ReadP.val_main_v51_eq, a0, a1, a2, a3, a4, a5]
    exact Cert.Bridge.linear_eq _ _ _ _ _ _ _ (Cert.Bridge.relu_eq _ _ _ _ hx0 hx2)
  exact ⟨h47.trans e0.symm, h51.trans e1.symm, hargs⟩

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
